-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩

abbrev nBuf : Space → Nat
  | .hbm => 18
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x3072, .f32⟩
  | .hbm, ⟨9, _⟩ => ⟨S1024x3072, .bf16⟩
  | .hbm, ⟨10, _⟩ => ⟨S3072, .f32⟩
  | .hbm, ⟨11, _⟩ => ⟨S1x3072, .f32⟩
  | .hbm, ⟨12, _⟩ => ⟨S8192x3072, .bf16⟩
  | .hbm, ⟨13, _⟩ => ⟨S4x2048x3072, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S_, .f32⟩
  | .hbm, ⟨28, _⟩ => ⟨S4x2048, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Proj.lean ====
/- The FRAME half of region 0 (the QKV projection) of `Kernel`'s @main, at a parameter `V`: the TensorCore's buffer
   contents when the region is entered. Each window's block at a grid point, what the kernel body leaves in the
   output window's staging buffer as a function of the three input blocks, the body's triple, the pipeline's
   proof data and its body obligation. -/
import proofs.«156329_j81458349736252_2_alg».proof.Proof.Gen.Kernel.Launch
import proofs.«156329_j81458349736252_2_alg».proof.Proof.Gen.Kernel.Skeleton
import proofs.«156329_j81458349736252_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: the projection `x · [Wq|Wk|Wv] + [bq|bk|bv]`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, resident: fetched once, its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, resident) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the whole buffer,
    whose payload is the skeleton's over the three loads. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The store is of the whole buffer, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.AttnBase.lean ====
/-
  Region 1 (the attention call): what its three cases share. The grid is 4 × 2 × 4 (batch, query tile, key tile), the key
  tile the fastest coordinate; at key tile 0 the running maximum, denominator and numerator are reset, at key tile 3 the
  quotient is stored to the output block; in between the output block is idle.
-/
import proofs.«156329_j81458349736252_2_alg».proof.Proof.Gen.Kernel.Launch
import proofs.«156329_j81458349736252_2_alg».proof.Proof.Gen.Kernel.Skeleton
import proofs.«156329_j81458349736252_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end Blocks

/-! ## The two branch conditions, decided over the grid -/

/-- "This is key tile 0", as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is key tile 3", as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called on -/

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch operands (running maximum, running denominator, running numerator), whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- A scoped buffer of the other call, whole at some contents. -/
abbrev oth (c : Dev nD) (b : Ref sig .tc) : sProp 𝕄 :=
  iprop(∃ f : Buf (Elt F) ((c : Thread nD τ).loc b), ((c : Thread nD τ).loc b) ↦{fullShare} f)

/-- The region's invariant before the first point: the other call's staging buffers and the three scratch operands at
    some contents, and the generator register. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg3_1
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.AttnRunA.lean ====
/-
  Region 1 (the attention call), case A: the whole body run once on whole staging memrefs.
-/
import proofs.«156329_j81458349736252_2_alg».proof.Proof.K.AttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of key tile 0 (the reset is taken, the final quotient is not): the output block is handed back
    untouched, the three scratch operands end with the pieces found here written over whatever they held. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.AttnRunB.lean ====
/-
  Region 1 (the attention call), case B: the whole body run once on whole staging memrefs.
-/
import proofs.«156329_j81458349736252_2_alg».proof.Proof.K.AttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of key tile 1 or 2 (neither branch taken): the output block is handed back untouched, the three
    scratch operands, found at what the point before left, end with the pieces found here written. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.AttnRunC.lean ====
/-
  Region 1 (the attention call), case C: the whole body run once on whole staging memrefs.
-/
import proofs.«156329_j81458349736252_2_alg».proof.Proof.K.AttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of key tile 3 (no reset, the final quotient stored): the output block and the three scratch
    operands, the latter found at what the point before left, end with the pieces found here written. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Attn.lean ====
/-
  Region 1 (the attention call): what the output block and the three scratch operands hold after each grid point, the
  region's proof data, and the body obligation at every point.
-/
import proofs.«156329_j81458349736252_2_alg».proof.Proof.K.AttnRunA
import proofs.«156329_j81458349736252_2_alg».proof.Proof.K.AttnRunB
import proofs.«156329_j81458349736252_2_alg».proof.Proof.K.AttnRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (a placeholder: the block is idle there and nothing consults it). -/
def out1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for scratch 0 cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
/-- What case A leaves in scratch 0. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch 1 cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y
/-- What case A leaves in scratch 1. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch 2 cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y
/-- What case A leaves in scratch 2. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- What case B leaves in the output block's staging buffer (a placeholder: the block is idle there and nothing consults it). -/
def out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for scratch 0 cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
/-- What case B leaves in scratch 0. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch 1 cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
/-- What case B leaves in scratch 1. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch 2 cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y
/-- What case B leaves in scratch 2. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's one store covers the output block. -/
theorem cover1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output block's staging buffer. -/
def out1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for scratch 0 cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y
/-- What case C leaves in scratch 0. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch 1 cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y
/-- What case C leaves in scratch 1. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch 2 cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y
/-- What case C leaves in scratch 2. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

section Data
variable (V : (c : Dev nD) → (b : Ref sig .tc) → Buf (Elt F) ((c : Thread nD τ).loc b))

/-- THE RECURRENCE over the grid points in order. After point `n`: the output block's buffer, then the running maximum,
    denominator and numerator. At key tile 0 nothing earlier is consulted; at the other key tiles the three scratch
    operands are taken at what point `n - 1` left. -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer outside the staging
    buffers at some contents; afterwards the three scratch operands at what the point before left. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg3_1
      ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg2_0 ∗ oth c cc0_stg3_0 ∗ oth c cc0_stg3_1
      ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg2_0 ∗ oth c cc0_stg3_0 ∗ oth c cc0_stg3_1
      ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- The proof data of the attention call on core `c`: the arrays as the region finds them; after the body at point `t`
    each input's buffer at its block and the output's at the recurrence's first component; the invariant `PhiS`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms of the two conditions say which case the point is in; the invariant hands
    the body the scratch operands at what the point before left (at anything before the first point) and takes them back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS_castSucc V c t, PhiS_zero V c _ _ hz, PhiA1_eq]
        iintro ⟨⟨⟨Ho0, Ho1, Ho2, Ho3, Ho4, Ho5, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Ho0 Ho1 Ho2 Ho3 Ho4 Ho5 HS0 HS1 HS2 Hg]
        · isplitl [Ho0 Ho1 Ho2 Ho3 Ho4 Ho5 HS0 HS1 HS2]
          · isplitl [Ho0]; · iexact Ho0
            isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Ho0, Ho1, Ho2, Ho3, Ho4, Ho5, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Ho0 Ho1 Ho2 Ho3 Ho4 Ho5 HS0 HS1 HS2 Hg]
        · isplitl [Ho0 Ho1 Ho2 Ho3 Ho4 Ho5 HS0 HS1 HS2]
          · isplitl [Ho0]; · iexact Ho0
            isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      rw [PhiS_castSucc V c t, PhiS_pos V c _ _ hz]
      iintro ⟨⟨⟨Ho0, Ho1, Ho2, Ho3, Ho4, Ho5, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Ho0 Ho1 Ho2 Ho3 Ho4 Ho5 HS0 HS1 HS2 Hg]
      · isplitl [Ho0 Ho1 Ho2 Ho3 Ho4 Ho5 HS0 HS1 HS2]
        · isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      rw [PhiS_castSucc V c t, PhiS_pos V c _ _ hz]
      iintro ⟨⟨⟨Ho0, Ho1, Ho2, Ho3, Ho4, Ho5, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ho0 Ho1 Ho2 Ho3 Ho4 Ho5 HS0 HS1 HS2 Hg]
      · isplitl [Ho0 Ho1 Ho2 Ho3 Ho4 Ho5 HS0 HS1 HS2]
        · isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back every scoped buffer at some contents. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ho0, Ho1, Ho2, Ho3, Ho4, Ho5, HS0, HS1, HS2⟩, Hg⟩
  isplitl [Ho0 Ho1 Ho2 Ho3 Ho4 Ho5 HS0 HS1 HS2]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 32 := N_1; omega)

end Data

end Cert.Kernel.Hand

end
-- ==== Proof.K.Run.lean ====
/-
  The whole program as a run: the host operations before the projection call, the projection call, the host operations
  between the two calls, the attention call. The buffer contents at each boundary are a fold from the launch memory; the
  run ends with every unscoped buffer at the last boundary's contents.
-/
import proofs.«156329_j81458349736252_2_alg».proof.Proof.K.Proj
import proofs.«156329_j81458349736252_2_alg».proof.Proof.K.Attn
import proofs.«156329_j81458349736252_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev hW0 : Dev nD → Valuation τ sig (Elt F) := fun c b => m (c, b)
abbrev hW1 : Dev nD → Valuation τ sig (Elt F) := fun c => StableHlo.after hostOps0 (hW0 m c)
abbrev hV1 : (c : Dev nD) → (b : Ref sig .tc) → Buf (Elt F) ((c : Thread nD τ).loc b) := fun c b => hW1 m c b
/-- After the projection call: its arrays at what the call leaves, every other buffer as entered. -/
def hW2 (c : Dev nD) : Valuation τ sig (Elt F) :=
  Pipeline.withArrays spec0 c (hW1 m c) fun w => (dat0 (hV1 m) c).arrAt w cfg0.N
theorem hW2_arr (c : Dev nD) (w : Fin cfg0.W) :
    hW2 m c (Proc.devRef .tc (Pipeline.arrRef spec0 w)) = (dat0 (hV1 m) c).arrAt w cfg0.N := by
  unfold hW2; exact Pipeline.withArrays_arr spec0 launch0.win.arr_inj c _ _ w
theorem hW2_of_ne (c : Dev nD) (b : Ref sig .tc) (hb : ∀ w, Pipeline.arrRef spec0 w ≠ b) :
    hW2 m c (Proc.devRef .tc b) = hW1 m c (Proc.devRef .tc b) := by
  unfold hW2; exact Pipeline.withArrays_of_ne spec0 c _ _ b hb
abbrev hV2 : (c : Dev nD) → (b : Ref sig .tc) → Buf (Elt F) ((c : Thread nD τ).loc b) := fun c b => hW2 m c b
theorem hF0 (c : Dev nD) (w : Fin cfg0.W) : (dat0 (hV1 m) c).arrAt w cfg0.N = hV2 m c (Pipeline.arrRef spec0 w) :=
  (hW2_arr m c w).symm
theorem hrest0 (c : Dev nD) : ∀ b, b ∉ Finset.univ.image (Pipeline.arrRef spec0) → hV2 m c b = hV1 m c b :=
  fun b hb => hW2_of_ne m c b fun w e => hb (Finset.mem_image.mpr ⟨w, Finset.mem_univ _, e⟩)

abbrev hW3 : Dev nD → Valuation τ sig (Elt F) := fun c => StableHlo.after hostOps1 (hW2 m c)
abbrev hV3 : (c : Dev nD) → (b : Ref sig .tc) → Buf (Elt F) ((c : Thread nD τ).loc b) := fun c b => hW3 m c b
/-- After the attention call: its arrays at what the call leaves, every other buffer as entered. -/
def hW4 (c : Dev nD) : Valuation τ sig (Elt F) :=
  Pipeline.withArrays spec1 c (hW3 m c) fun w => (dat1 (hV3 m) c).arrAt w cfg1.N
theorem hW4_arr (c : Dev nD) (w : Fin cfg1.W) :
    hW4 m c (Proc.devRef .tc (Pipeline.arrRef spec1 w)) = (dat1 (hV3 m) c).arrAt w cfg1.N := by
  unfold hW4; exact Pipeline.withArrays_arr spec1 launch1.win.arr_inj c _ _ w
theorem hW4_of_ne (c : Dev nD) (b : Ref sig .tc) (hb : ∀ w, Pipeline.arrRef spec1 w ≠ b) :
    hW4 m c (Proc.devRef .tc b) = hW3 m c (Proc.devRef .tc b) := by
  unfold hW4; exact Pipeline.withArrays_of_ne spec1 c _ _ b hb
abbrev hV4 : (c : Dev nD) → (b : Ref sig .tc) → Buf (Elt F) ((c : Thread nD τ).loc b) := fun c b => hW4 m c b
theorem hF1 (c : Dev nD) (w : Fin cfg1.W) : (dat1 (hV3 m) c).arrAt w cfg1.N = hV4 m c (Pipeline.arrRef spec1 w) :=
  (hW4_arr m c w).symm
theorem hrest1 (c : Dev nD) : ∀ b, b ∉ Finset.univ.image (Pipeline.arrRef spec1) → hV4 m c b = hV3 m c b :=
  fun b hb => hW4_of_ne m c b fun w e => hb (Finset.mem_image.mpr ⟨w, Finset.mem_univ _, e⟩)

/-- A buffer that no host operation writes and that is no array of either call ends as launched. -/
theorem hW4_kept (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    hW4 m c (Proc.devRef .tc r) = m ((c : Thread nD τ).loc r) :=
  (hW4_of_ne m c r ha1).trans <| (StableHlo.after_of_writes_sub hostOps1 _ hostOps1_writes h1).trans <|
    (hW2_of_ne m c r ha0).trans <| (StableHlo.after_of_writes_sub hostOps0 _ hostOps0_writes h0).trans rfl

/-! ## The proof data family and the thread state -/

def hpdats : (p : Fin 2) → (c : Dev nD) → Dat τ (Elt F) Unit ℕ (UR sig nD τ) ℕ (Pipeline.pin (pcfgs (F := F)) adm p) c
  | ⟨0, _⟩ => fun c => dat0 (hV1 m) c
  | ⟨1, _⟩ => fun c => dat1 (hV3 m) c
abbrev Lz : GSem nD τ sig → Finset Unit := fun _ => ∅
abbrev lvz : GSem nD τ sig → Unit → ℕ := fun _ _ => 0
/-- What rides beside the buffers through every segment: the generator register at some state, and nothing owed. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
abbrev hTn (c : Dev nD) : sProp 𝕄 := iprop(StableHlo.held (c : Thread nD τ) (Pipeline.ucRefs τ sig) (hW4 m c) ∗ ∃ r, prngReg c r)

set_option backward.isDefEq.respectTransparency.types false in
/-- Region 0 over the thread state: entered with every unscoped buffer at the contents before it, left with the
    region's arrays at what its write-backs leave and every other buffer as entered; the generator register goes into the
    region's invariant and comes back; nothing is owed. -/
def hreg0 : Pipeline.RegionSeg (pcfgs (F := F)) adm (hpdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (hV1 m) c).loose
  hwaits := Pipeline.hwaits_of_owed_zero _ _ _ _ Lz lvz 0 fun _ _ => rfl
  pre c := iprop(StableHlo.held (c : Thread nD τ) (Pipeline.ucRefs τ sig) (hW1 m c) ∗ hR c)
  post c := iprop(StableHlo.held (c : Thread nD τ) (Pipeline.ucRefs τ sig) (hW2 m c) ∗ hR c)
  X c := iprop(∃ r, prngReg c r)
  Y c := iprop(∃ r, prngReg c r)
  Z c := Pipeline.unscopedRest (Ix := Unit) (Name := ℕ) (U := UR sig nD τ) (Lvl := ℕ) spec0 c (hV1 m c)
  hentry c := by
    rw [Pipeline.ownSems0_none]
    have hsplit := Pipeline.arrays_of_unscopedBufs (p := 0) (pcfgs (F := F)) adm (hpdats m) launch0.win launch0.arr_whole c
      ((hpdats m 0 c).share_full fun _ => rfl) (hV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m) ((hpdats m 0 c).share_full fun _ => rfl)
      (hV1 m c) (hV2 m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered; the generator register goes into the
    region's invariant and comes back; nothing is owed. -/
def hreg1 : Pipeline.RegionSeg (pcfgs (F := F)) adm (hpdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (hV3 m) c).loose
  hwaits := Pipeline.hwaits_of_owed_zero _ _ _ _ Lz lvz 1 fun _ _ => rfl
  pre c := iprop(StableHlo.held (c : Thread nD τ) (Pipeline.ucRefs τ sig) (hW3 m c) ∗ hR c)
  post c := iprop(hTn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (hV3 m c)
  hentry c := by
    rw [Pipeline.ownSems0_none]
    have hsplit := Pipeline.arrays_of_unscopedBufs (p := 1) (pcfgs (F := F)) adm (hpdats m) launch1.win launch1.arr_whole c
      ((hpdats m 1 c).share_full fun _ => rfl) (hV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (hV3 m) c
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (hpdats m) ((hpdats m 1 c).share_full fun _ => rfl)
      (hV3 m c) (hV4 m c) ((hpdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev hsegs : List (Pipeline.Seg (pcfgs (F := F)) adm (hpdats m) () defs₀ Variants.none Lz lvz) :=
  [ .host (hseg hostOps0 hostOps0_sub hostOps0_fresh (hW0 m)),
    .region (hreg0 m),
    .host (hseg hostOps1 hostOps1_sub hostOps1_fresh (hW2 m)),
    .region (hreg1 m) ]
theorem main_run (c : Dev nD) : main (F := F) c = Pipeline.Seg.run (hsegs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = hW4 m c b) :=
  Pipeline.θ_run_regions_kit (pcfgs (F := F)) adm (hpdats m) () cellOf_inj emb₁ defs₀ Variants.none Lz lvz m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (hW0 m c) ∗ hR c)) (Tₙ := hTn m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (hW0 m c)
        from Pipeline.unscopedBufs_held c (hW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = hW4 m c b)
    (hfin := fun c s' => by
      iintro ⟨⟨Hh, -⟩, HSI⟩
      unfold StableHlo.held
      imodintro
      iapply (pointsTo_read_all (Pipeline.ucRefs τ sig) (fun b => (((c : Thread nD τ)).1, b)) (hW4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (hW4_kept m c main_arg0 (by decide) (by decide) (by decide) (by decide)),
    (h c _ (mem_uc main_arg1 (by decide))).trans (hW4_kept m c main_arg1 (by decide) (by decide) (by decide) (by decide)),
    (h c _ (mem_uc main_arg2 (by decide))).trans (hW4_kept m c main_arg2 (by decide) (by decide) (by decide) (by decide)),
    (h c _ (mem_uc main_arg3 (by decide))).trans (hW4_kept m c main_arg3 (by decide) (by decide) (by decide) (by decide)),
    (h c _ (mem_uc main_arg4 (by decide))).trans (hW4_kept m c main_arg4 (by decide) (by decide) (by decide) (by decide)),
    (h c _ (mem_uc main_arg5 (by decide))).trans (hW4_kept m c main_arg5 (by decide) (by decide) (by decide) (by decide)),
    (h c _ (mem_uc main_arg6 (by decide))).trans (hW4_kept m c main_arg6 (by decide) (by decide) (by decide) (by decide))⟩) (run_all m ρ)

end Cert.Kernel.Hand

end
-- ==== Proof.KI.Proj.lean ====
/- The FRAME half of region 0 (the QKV projection) of `KernelIdeal`'s @main, at a parameter `V`: the TensorCore's buffer
   contents when the region is entered. Each window's block at a grid point, what the kernel body leaves in the
   output window's staging buffer as a function of the three input blocks, the body's triple, the pipeline's
   proof data and its body obligation. -/
import proofs.«156329_j81458349736252_2_alg».proof.Proof.Gen.KernelIdeal.Launch
import proofs.«156329_j81458349736252_2_alg».proof.Proof.Gen.KernelIdeal.Skeleton
import proofs.«156329_j81458349736252_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: the projection `x · [Wq|Wk|Wv] + [bq|bk|bv]`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, resident: fetched once, its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, resident) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the whole buffer,
    whose payload is the skeleton's over the three loads. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The store is of the whole buffer, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.AttnBase.lean ====
/-
  Region 1 (the attention call): what its three cases share. The grid is 4 × 2 × 4 (batch, query tile, key tile), the key
  tile the fastest coordinate; at key tile 0 the running maximum, denominator and numerator are reset, at key tile 3 the
  quotient is stored to the output block; in between the output block is idle.
-/
import proofs.«156329_j81458349736252_2_alg».proof.Proof.Gen.KernelIdeal.Launch
import proofs.«156329_j81458349736252_2_alg».proof.Proof.Gen.KernelIdeal.Skeleton
import proofs.«156329_j81458349736252_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end Blocks

/-! ## The two branch conditions, decided over the grid -/

/-- "This is key tile 0", as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is key tile 3", as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called on -/

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch operands (running maximum, running denominator, running numerator), whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- A scoped buffer of the other call, whole at some contents. -/
abbrev oth (c : Dev nD) (b : Ref sig .tc) : sProp 𝕄 :=
  iprop(∃ f : Buf (Elt F) ((c : Thread nD τ).loc b), ((c : Thread nD τ).loc b) ↦{fullShare} f)

/-- The region's invariant before the first point: the other call's staging buffers and the three scratch operands at
    some contents, and the generator register. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg3_1
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.AttnRunA.lean ====
/-
  Region 1 (the attention call), case A: the whole body run once on whole staging memrefs.
-/
import proofs.«156329_j81458349736252_2_alg».proof.Proof.KI.AttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of key tile 0 (the reset is taken, the final quotient is not): the output block is handed back
    untouched, the three scratch operands end with the pieces found here written over whatever they held. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.AttnRunB.lean ====
/-
  Region 1 (the attention call), case B: the whole body run once on whole staging memrefs.
-/
import proofs.«156329_j81458349736252_2_alg».proof.Proof.KI.AttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of key tile 1 or 2 (neither branch taken): the output block is handed back untouched, the three
    scratch operands, found at what the point before left, end with the pieces found here written. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.AttnRunC.lean ====
/-
  Region 1 (the attention call), case C: the whole body run once on whole staging memrefs.
-/
import proofs.«156329_j81458349736252_2_alg».proof.Proof.KI.AttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of key tile 3 (no reset, the final quotient stored): the output block and the three scratch
    operands, the latter found at what the point before left, end with the pieces found here written. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Attn.lean ====
/-
  Region 1 (the attention call): what the output block and the three scratch operands hold after each grid point, the
  region's proof data, and the body obligation at every point.
-/
import proofs.«156329_j81458349736252_2_alg».proof.Proof.KI.AttnRunA
import proofs.«156329_j81458349736252_2_alg».proof.Proof.KI.AttnRunB
import proofs.«156329_j81458349736252_2_alg».proof.Proof.KI.AttnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (a placeholder: the block is idle there and nothing consults it). -/
def out1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for scratch 0 cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
/-- What case A leaves in scratch 0. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch 1 cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y
/-- What case A leaves in scratch 1. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch 2 cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y
/-- What case A leaves in scratch 2. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- What case B leaves in the output block's staging buffer (a placeholder: the block is idle there and nothing consults it). -/
def out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for scratch 0 cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
/-- What case B leaves in scratch 0. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch 1 cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
/-- What case B leaves in scratch 1. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch 2 cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y
/-- What case B leaves in scratch 2. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's one store covers the output block. -/
theorem cover1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output block's staging buffer. -/
def out1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for scratch 0 cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y
/-- What case C leaves in scratch 0. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch 1 cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y
/-- What case C leaves in scratch 1. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch 2 cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y
/-- What case C leaves in scratch 2. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

section Data
variable (V : (c : Dev nD) → (b : Ref sig .tc) → Buf (Elt F) ((c : Thread nD τ).loc b))

/-- THE RECURRENCE over the grid points in order. After point `n`: the output block's buffer, then the running maximum,
    denominator and numerator. At key tile 0 nothing earlier is consulted; at the other key tiles the three scratch
    operands are taken at what point `n - 1` left. -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer outside the staging
    buffers at some contents; afterwards the three scratch operands at what the point before left. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg3_1
      ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg2_0 ∗ oth c cc0_stg3_0 ∗ oth c cc0_stg3_1
      ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg2_0 ∗ oth c cc0_stg3_0 ∗ oth c cc0_stg3_1
      ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- The proof data of the attention call on core `c`: the arrays as the region finds them; after the body at point `t`
    each input's buffer at its block and the output's at the recurrence's first component; the invariant `PhiS`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms of the two conditions say which case the point is in; the invariant hands
    the body the scratch operands at what the point before left (at anything before the first point) and takes them back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS_castSucc V c t, PhiS_zero V c _ _ hz, PhiA1_eq]
        iintro ⟨⟨⟨Ho0, Ho1, Ho2, Ho3, Ho4, Ho5, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Ho0 Ho1 Ho2 Ho3 Ho4 Ho5 HS0 HS1 HS2 Hg]
        · isplitl [Ho0 Ho1 Ho2 Ho3 Ho4 Ho5 HS0 HS1 HS2]
          · isplitl [Ho0]; · iexact Ho0
            isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Ho0, Ho1, Ho2, Ho3, Ho4, Ho5, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Ho0 Ho1 Ho2 Ho3 Ho4 Ho5 HS0 HS1 HS2 Hg]
        · isplitl [Ho0 Ho1 Ho2 Ho3 Ho4 Ho5 HS0 HS1 HS2]
          · isplitl [Ho0]; · iexact Ho0
            isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      rw [PhiS_castSucc V c t, PhiS_pos V c _ _ hz]
      iintro ⟨⟨⟨Ho0, Ho1, Ho2, Ho3, Ho4, Ho5, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Ho0 Ho1 Ho2 Ho3 Ho4 Ho5 HS0 HS1 HS2 Hg]
      · isplitl [Ho0 Ho1 Ho2 Ho3 Ho4 Ho5 HS0 HS1 HS2]
        · isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      rw [PhiS_castSucc V c t, PhiS_pos V c _ _ hz]
      iintro ⟨⟨⟨Ho0, Ho1, Ho2, Ho3, Ho4, Ho5, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ho0 Ho1 Ho2 Ho3 Ho4 Ho5 HS0 HS1 HS2 Hg]
      · isplitl [Ho0 Ho1 Ho2 Ho3 Ho4 Ho5 HS0 HS1 HS2]
        · isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back every scoped buffer at some contents. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ho0, Ho1, Ho2, Ho3, Ho4, Ho5, HS0, HS1, HS2⟩, Hg⟩
  isplitl [Ho0 Ho1 Ho2 Ho3 Ho4 Ho5 HS0 HS1 HS2]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 32 := N_1; omega)

end Data

end Cert.KernelIdeal.Hand

end
-- ==== Proof.KI.Run.lean ====
/-
  The whole program as a run: the host operations before the projection call, the projection call, the host operations
  between the two calls, the attention call. The buffer contents at each boundary are a fold from the launch memory; the
  run ends with every unscoped buffer at the last boundary's contents.
-/
import proofs.«156329_j81458349736252_2_alg».proof.Proof.KI.Proj
import proofs.«156329_j81458349736252_2_alg».proof.Proof.KI.Attn
import proofs.«156329_j81458349736252_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev hW0 : Dev nD → Valuation τ sig (Elt F) := fun c b => m (c, b)
abbrev hW1 : Dev nD → Valuation τ sig (Elt F) := fun c => StableHlo.after hostOps0 (hW0 m c)
abbrev hV1 : (c : Dev nD) → (b : Ref sig .tc) → Buf (Elt F) ((c : Thread nD τ).loc b) := fun c b => hW1 m c b
/-- After the projection call: its arrays at what the call leaves, every other buffer as entered. -/
def hW2 (c : Dev nD) : Valuation τ sig (Elt F) :=
  Pipeline.withArrays spec0 c (hW1 m c) fun w => (dat0 (hV1 m) c).arrAt w cfg0.N
theorem hW2_arr (c : Dev nD) (w : Fin cfg0.W) :
    hW2 m c (Proc.devRef .tc (Pipeline.arrRef spec0 w)) = (dat0 (hV1 m) c).arrAt w cfg0.N := by
  unfold hW2; exact Pipeline.withArrays_arr spec0 launch0.win.arr_inj c _ _ w
theorem hW2_of_ne (c : Dev nD) (b : Ref sig .tc) (hb : ∀ w, Pipeline.arrRef spec0 w ≠ b) :
    hW2 m c (Proc.devRef .tc b) = hW1 m c (Proc.devRef .tc b) := by
  unfold hW2; exact Pipeline.withArrays_of_ne spec0 c _ _ b hb
abbrev hV2 : (c : Dev nD) → (b : Ref sig .tc) → Buf (Elt F) ((c : Thread nD τ).loc b) := fun c b => hW2 m c b
theorem hF0 (c : Dev nD) (w : Fin cfg0.W) : (dat0 (hV1 m) c).arrAt w cfg0.N = hV2 m c (Pipeline.arrRef spec0 w) :=
  (hW2_arr m c w).symm
theorem hrest0 (c : Dev nD) : ∀ b, b ∉ Finset.univ.image (Pipeline.arrRef spec0) → hV2 m c b = hV1 m c b :=
  fun b hb => hW2_of_ne m c b fun w e => hb (Finset.mem_image.mpr ⟨w, Finset.mem_univ _, e⟩)

abbrev hW3 : Dev nD → Valuation τ sig (Elt F) := fun c => StableHlo.after hostOps1 (hW2 m c)
abbrev hV3 : (c : Dev nD) → (b : Ref sig .tc) → Buf (Elt F) ((c : Thread nD τ).loc b) := fun c b => hW3 m c b
/-- After the attention call: its arrays at what the call leaves, every other buffer as entered. -/
def hW4 (c : Dev nD) : Valuation τ sig (Elt F) :=
  Pipeline.withArrays spec1 c (hW3 m c) fun w => (dat1 (hV3 m) c).arrAt w cfg1.N
theorem hW4_arr (c : Dev nD) (w : Fin cfg1.W) :
    hW4 m c (Proc.devRef .tc (Pipeline.arrRef spec1 w)) = (dat1 (hV3 m) c).arrAt w cfg1.N := by
  unfold hW4; exact Pipeline.withArrays_arr spec1 launch1.win.arr_inj c _ _ w
theorem hW4_of_ne (c : Dev nD) (b : Ref sig .tc) (hb : ∀ w, Pipeline.arrRef spec1 w ≠ b) :
    hW4 m c (Proc.devRef .tc b) = hW3 m c (Proc.devRef .tc b) := by
  unfold hW4; exact Pipeline.withArrays_of_ne spec1 c _ _ b hb
abbrev hV4 : (c : Dev nD) → (b : Ref sig .tc) → Buf (Elt F) ((c : Thread nD τ).loc b) := fun c b => hW4 m c b
theorem hF1 (c : Dev nD) (w : Fin cfg1.W) : (dat1 (hV3 m) c).arrAt w cfg1.N = hV4 m c (Pipeline.arrRef spec1 w) :=
  (hW4_arr m c w).symm
theorem hrest1 (c : Dev nD) : ∀ b, b ∉ Finset.univ.image (Pipeline.arrRef spec1) → hV4 m c b = hV3 m c b :=
  fun b hb => hW4_of_ne m c b fun w e => hb (Finset.mem_image.mpr ⟨w, Finset.mem_univ _, e⟩)

/-- A buffer that no host operation writes and that is no array of either call ends as launched. -/
theorem hW4_kept (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    hW4 m c (Proc.devRef .tc r) = m ((c : Thread nD τ).loc r) :=
  (hW4_of_ne m c r ha1).trans <| (StableHlo.after_of_writes_sub hostOps1 _ hostOps1_writes h1).trans <|
    (hW2_of_ne m c r ha0).trans <| (StableHlo.after_of_writes_sub hostOps0 _ hostOps0_writes h0).trans rfl

/-! ## The proof data family and the thread state -/

def hpdats : (p : Fin 2) → (c : Dev nD) → Dat τ (Elt F) Unit ℕ (UR sig nD τ) ℕ (Pipeline.pin (pcfgs (F := F)) adm p) c
  | ⟨0, _⟩ => fun c => dat0 (hV1 m) c
  | ⟨1, _⟩ => fun c => dat1 (hV3 m) c
abbrev Lz : GSem nD τ sig → Finset Unit := fun _ => ∅
abbrev lvz : GSem nD τ sig → Unit → ℕ := fun _ _ => 0
/-- What rides beside the buffers through every segment: the generator register at some state, and nothing owed. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
abbrev hTn (c : Dev nD) : sProp 𝕄 := iprop(StableHlo.held (c : Thread nD τ) (Pipeline.ucRefs τ sig) (hW4 m c) ∗ ∃ r, prngReg c r)

set_option backward.isDefEq.respectTransparency.types false in
/-- Region 0 over the thread state: entered with every unscoped buffer at the contents before it, left with the
    region's arrays at what its write-backs leave and every other buffer as entered; the generator register goes into the
    region's invariant and comes back; nothing is owed. -/
def hreg0 : Pipeline.RegionSeg (pcfgs (F := F)) adm (hpdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (hV1 m) c).loose
  hwaits := Pipeline.hwaits_of_owed_zero _ _ _ _ Lz lvz 0 fun _ _ => rfl
  pre c := iprop(StableHlo.held (c : Thread nD τ) (Pipeline.ucRefs τ sig) (hW1 m c) ∗ hR c)
  post c := iprop(StableHlo.held (c : Thread nD τ) (Pipeline.ucRefs τ sig) (hW2 m c) ∗ hR c)
  X c := iprop(∃ r, prngReg c r)
  Y c := iprop(∃ r, prngReg c r)
  Z c := Pipeline.unscopedRest (Ix := Unit) (Name := ℕ) (U := UR sig nD τ) (Lvl := ℕ) spec0 c (hV1 m c)
  hentry c := by
    rw [Pipeline.ownSems0_none]
    have hsplit := Pipeline.arrays_of_unscopedBufs (p := 0) (pcfgs (F := F)) adm (hpdats m) launch0.win launch0.arr_whole c
      ((hpdats m 0 c).share_full fun _ => rfl) (hV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m) ((hpdats m 0 c).share_full fun _ => rfl)
      (hV1 m c) (hV2 m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered; the generator register goes into the
    region's invariant and comes back; nothing is owed. -/
def hreg1 : Pipeline.RegionSeg (pcfgs (F := F)) adm (hpdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (hV3 m) c).loose
  hwaits := Pipeline.hwaits_of_owed_zero _ _ _ _ Lz lvz 1 fun _ _ => rfl
  pre c := iprop(StableHlo.held (c : Thread nD τ) (Pipeline.ucRefs τ sig) (hW3 m c) ∗ hR c)
  post c := iprop(hTn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (hV3 m c)
  hentry c := by
    rw [Pipeline.ownSems0_none]
    have hsplit := Pipeline.arrays_of_unscopedBufs (p := 1) (pcfgs (F := F)) adm (hpdats m) launch1.win launch1.arr_whole c
      ((hpdats m 1 c).share_full fun _ => rfl) (hV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (hV3 m) c
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (hpdats m) ((hpdats m 1 c).share_full fun _ => rfl)
      (hV3 m c) (hV4 m c) ((hpdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev hsegs : List (Pipeline.Seg (pcfgs (F := F)) adm (hpdats m) () defs₀ Variants.none Lz lvz) :=
  [ .host (hseg hostOps0 hostOps0_sub hostOps0_fresh (hW0 m)),
    .region (hreg0 m),
    .host (hseg hostOps1 hostOps1_sub hostOps1_fresh (hW2 m)),
    .region (hreg1 m) ]
theorem main_run (c : Dev nD) : main (F := F) c = Pipeline.Seg.run (hsegs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = hW4 m c b) :=
  Pipeline.θ_run_regions_kit (pcfgs (F := F)) adm (hpdats m) () cellOf_inj emb₁ defs₀ Variants.none Lz lvz m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (hW0 m c) ∗ hR c)) (Tₙ := hTn m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (hW0 m c)
        from Pipeline.unscopedBufs_held c (hW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = hW4 m c b)
    (hfin := fun c s' => by
      iintro ⟨⟨Hh, -⟩, HSI⟩
      unfold StableHlo.held
      imodintro
      iapply (pointsTo_read_all (Pipeline.ucRefs τ sig) (fun b => (((c : Thread nD τ)).1, b)) (hW4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (hW4_kept m c main_arg0 (by decide) (by decide) (by decide) (by decide)),
    (h c _ (mem_uc main_arg1 (by decide))).trans (hW4_kept m c main_arg1 (by decide) (by decide) (by decide) (by decide)),
    (h c _ (mem_uc main_arg2 (by decide))).trans (hW4_kept m c main_arg2 (by decide) (by decide) (by decide) (by decide)),
    (h c _ (mem_uc main_arg3 (by decide))).trans (hW4_kept m c main_arg3 (by decide) (by decide) (by decide) (by decide)),
    (h c _ (mem_uc main_arg4 (by decide))).trans (hW4_kept m c main_arg4 (by decide) (by decide) (by decide) (by decide)),
    (h c _ (mem_uc main_arg5 (by decide))).trans (hW4_kept m c main_arg5 (by decide) (by decide) (by decide) (by decide)),
    (h c _ (mem_uc main_arg6 (by decide))).trans (hW4_kept m c main_arg6 (by decide) (by decide) (by decide) (by decide))⟩) (run_all m ρ)

end Cert.KernelIdeal.Hand

end
-- ==== Proof.Spec.lean ====
/-
  The attention layer as ONE function of its seven argument arrays, index by index, on the extended reals:
  three affine projections of the input, the scaled scores of queries against keys, a softmax along the key axis
  (the row's maximum subtracted before the exponential), and the weighted sum of the values.
  Stated over literal shapes and coordinates, in layers, so that each program's result can be proved equal to it
  one layer at a time.
-/
import Idealize.ShloMosaic.PureOps.Ideal
import Idealize.ShloMosaic.Lib.ValueIdx

noncomputable section

namespace Cert.Spec

open Idealize.ShloMosaic Idealize.ShloMosaic.ValueIdx
open scoped BigOperators

/-- A projection at (batch `bi`, position `s`, feature `h`): the row of `x` against column `h` of `W`, plus the bias. -/
def proj (x : (⟨3, ![4, 2048, 1024]⟩ : Shape).Idx → EReal) (W : (⟨2, ![1024, 1024]⟩ : Shape).Idx → EReal)
    (b : (⟨1, ![1024]⟩ : Shape).Idx → EReal) (bi : Fin 4) (s : Fin 2048) (h : Fin 1024) : EReal :=
  (∑ d : Fin 1024, x (ix3 bi s d) * W (ix2 d h)) + b (ix1 h)

/-- The scaled score of query position `q` against key position `k`: their inner product over the features,
    divided by 32 (the square root of the feature count 1024). -/
def score (Q K : Fin 4 → Fin 2048 → Fin 1024 → EReal) (bi : Fin 4) (q k : Fin 2048) : EReal :=
  Ideal.div (∑ h : Fin 1024, Q bi q h * K bi k h) ((32 : ℝ) : EReal)

/-- The greatest score of a query's row (the supremum over the key positions, from `⊥`). -/
def rowMax (S : Fin 4 → Fin 2048 → Fin 2048 → EReal) (bi : Fin 4) (q : Fin 2048) : EReal :=
  Finset.univ.sup fun k : Fin 2048 => S bi q k

/-- The exponential of a score less its row's maximum. -/
def expo (S : Fin 4 → Fin 2048 → Fin 2048 → EReal) (bi : Fin 4) (q k : Fin 2048) : EReal :=
  Ideal.exp (S bi q k - rowMax S bi q)

/-- A row's normaliser: the sum of its exponentials over the key positions. -/
def denom (S : Fin 4 → Fin 2048 → Fin 2048 → EReal) (bi : Fin 4) (q : Fin 2048) : EReal :=
  ∑ k : Fin 2048, expo S bi q k

/-- The softmax weight of key position `k` for query position `q`. -/
def prob (S : Fin 4 → Fin 2048 → Fin 2048 → EReal) (bi : Fin 4) (q k : Fin 2048) : EReal :=
  Ideal.div (expo S bi q k) (denom S bi q)

/-- The scores of the projected queries against the projected keys. -/
def scores (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal) :
    Fin 4 → Fin 2048 → Fin 2048 → EReal :=
  score (proj x Wq bq) (proj x Wk bk)

/-- The layer's result at (batch `bi`, query position `q`, feature `h`): the values weighted by the row's softmax. -/
def attn (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (bi : Fin 4) (q : Fin 2048) (h : Fin 1024) : EReal :=
  ∑ k : Fin 2048, prob (scores x Wq bq Wk bk) bi q k * proj x Wv bv bi k h

end Cert.Spec

end
-- ==== Proof.RefValue.lean ====
/-
  The reference program's result, read at an index, is the attention layer of the specification: each of its
  operations is read at coordinates (a product of arrays as a sum over the contracted coordinate, a broadcast as
  its operand at the kept coordinates, the row maximum as a supremum over the key positions, the row sum as a
  sum over them), one layer of the specification at a time.
-/
import proofs.«156329_j81458349736252_2_alg».proof.Proof.Gen.ReferenceIdeal.Read
import proofs.«156329_j81458349736252_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem
open scoped BigOperators

/-! ## The constants the reference spells -/

/-- The pattern of `-∞` denotes the bottom of the extended reals. -/
theorem ofBits_neg_inf : Ideal.ofBits .f32 0xFF800000#32 = ⊥ := by
  simp [Ideal.ofBits, Ideal.ieee]

/-- `1024.0` denotes the real 1024. -/
theorem ofBits_1024 : Ideal.ofBits .f32 0x44800000#32 = ((1024 : ℝ) : EReal) := by
  simp [Ideal.ofBits, Ideal.ieee, -EReal.coe_mul]; norm_num

/-- `0.5` denotes the real one half. -/
theorem ofBits_half : Ideal.ofBits .f32 0x3F000000#32 = ((1 / 2 : ℝ) : EReal) := by
  simp [Ideal.ofBits, Ideal.ieee, -EReal.coe_mul]; norm_num

/-- The square root of 1024, as a real power, is 32. -/
theorem rpow_1024_half : Real.rpow 1024 (1 / 2) = 32 := by
  show (1024 : ℝ) ^ ((1 / 2 : ℝ)) = 32
  rw [show (1024 : ℝ) = 32 ^ (2 : ℝ) by norm_num, ← Real.rpow_mul (by norm_num)]
  norm_num

/-- The reference's divisor `1024.0 ^ 0.5` is 32. -/
theorem scale_eq :
    Ideal.pow (Ideal.ofBits .f32 0x44800000#32) (Ideal.ofBits .f32 0x3F000000#32) = ((32 : ℝ) : EReal) := by
  rw [ofBits_1024, ofBits_half, Ideal.pow_coe_coe, rpow_1024_half]

/-! ## The three projections -/

/-- A projection read at (bi, s, h). -/
theorem proj_apply (x : (⟨S4x2048x1024, .f32⟩ : BufTy).Contents (Elt Ideal))
    (W : (⟨S1024x1024, .f32⟩ : BufTy).Contents (Elt Ideal)) (b : (⟨S1024, .f32⟩ : BufTy).Contents (Elt Ideal))
    (bi : Fin 4) (s : Fin 2048) (h : Fin 1024) :
    val_main_v3 (F := Ideal) x W b (ix3 bi s h) = Spec.proj x W b bi s h := by
  rw [val_main_v3_apply, val_main_v0_apply, val_main_v2_apply, val_main_v1_apply]
  unfold Spec.proj
  refine congrArg₂ (· + ·) (Finset.sum_congr rfl fun d _ => congrArg₂ (· * ·) (congrArg x ?_) (congrArg W ?_)) (congrArg b ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-- The key projection is the same function of its weights and bias as the query projection. -/
theorem val_main_v7_eq (x : (⟨S4x2048x1024, .f32⟩ : BufTy).Contents (Elt Ideal))
    (W : (⟨S1024x1024, .f32⟩ : BufTy).Contents (Elt Ideal)) (b : (⟨S1024, .f32⟩ : BufTy).Contents (Elt Ideal)) :
    val_main_v7 (F := Ideal) x W b = val_main_v3 (F := Ideal) x W b := rfl

/-- So is the value projection. -/
theorem val_main_v11_eq (x : (⟨S4x2048x1024, .f32⟩ : BufTy).Contents (Elt Ideal))
    (W : (⟨S1024x1024, .f32⟩ : BufTy).Contents (Elt Ideal)) (b : (⟨S1024, .f32⟩ : BufTy).Contents (Elt Ideal)) :
    val_main_v11 (F := Ideal) x W b = val_main_v3 (F := Ideal) x W b := rfl

/-! ## The scores -/

/-- The scaled scores read at (bi, q, k). -/
theorem scores_apply (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (bi : Fin 4) (q k : Fin 2048) :
    val_main_v15 (F := Ideal) x0 x1 x2 x3 x4 (ix3 bi q k) = Spec.scores x0 x1 x2 x3 x4 bi q k := by
  rw [val_main_v15_apply, val_main_v13_apply, val_main_v14_apply, val_main_v12_apply, val_main_cst_apply,
    val_main_cst_0_apply, val_main_v7_eq]
  simp only [Ideal.hostDivf_def, Ideal.hostPowf_def, Ideal.ofBits_def, scale_eq]
  unfold Spec.scores Spec.score
  refine congrArg (fun t => Ideal.div t ((32 : ℝ) : EReal)) (Finset.sum_congr rfl fun h _ => ?_)
  refine congrArg₂ (· * ·) ?_ ?_
  · rw [← proj_apply]
    exact congrArg _ (funext fun a => match a with | ⟨0, _⟩ => rfl | ⟨1, _⟩ => rfl | ⟨2, _⟩ => rfl)
  · rw [← proj_apply]
    exact congrArg _ (funext fun a => match a with | ⟨0, _⟩ => rfl | ⟨1, _⟩ => rfl | ⟨2, _⟩ => rfl)

/-! ## The softmax along the key axis -/

/-- On the extended reals the lattice's join is the maximum. -/
theorem sup_eq_max' (a b : EReal) : a ⊔ b = max a b := rfl

/-- A maximum-reduction of an array over its last axis from `-∞`, then a maximum with `-∞`: at (bi, q) the supremum of the row. -/
theorem rowMax_of (y : (⟨S4x2048x2048, .f32⟩ : BufTy).Contents (Elt Ideal)) (S : Fin 4 → Fin 2048 → Fin 2048 → EReal)
    (hy : ∀ bi q k, y (ix3 bi q k) = S bi q k) (bi : Fin 4) (q : Fin 2048) :
    FloatOps.maximumf (F := Ideal) (φ := .f32) (Ideal.ofBits .f32 0xFF800000#32)
        (Host.reduce (FloatOps.maximumf (F := Ideal) (φ := .f32)) y (val_main_cst_1 (F := Ideal)) reducesTo_S4x2048x2048_S4x2048_d2 h_S_ (ix2 bi q))
      = Spec.rowMax S bi q := by
  have h : S4x2048x2048.Reduces [2] S4x2048 := by decide
  rw [Host.reduce_eq_fold_single (FloatOps.maximumf (F := Ideal) (φ := .f32)) y _ reducesTo_S4x2048x2048_S4x2048_d2 h h_S_]
  rw [val_main_cst_1_apply]
  simp only [Ideal.ofBits_def, ofBits_neg_inf]
  have hf : (y ∘ h.lift (ix2 bi q)) = fun k : Fin 2048 => S bi q k := funext fun k => by
    refine Eq.trans (congrArg y ?_) (hy bi q k)
    exact funext fun a => Fin.ext (by match a with | ⟨0, _⟩ => rfl | ⟨1, _⟩ => rfl | ⟨2, _⟩ => rfl)
  rw [hf]
  show max ⊥ (Finset.fold max ⊥ (fun k : Fin 2048 => S bi q k) Finset.univ) = _
  rw [max_bot_left]
  rfl

/-- The row maximum the reference subtracts, read at (bi, q). -/
theorem rowMax_apply (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (bi : Fin 4) (q : Fin 2048) :
    val_main_v18 (F := Ideal) x0 x1 x2 x3 x4 (ix2 bi q) = Spec.rowMax (Spec.scores x0 x1 x2 x3 x4) bi q := by
  rw [val_main_v18_apply, val_main_v17_apply, val_main_cst_2_apply]
  unfold val_main_v16
  exact rowMax_of _ _ (scores_apply x0 x1 x2 x3 x4) bi q

/-- The exponentials read at (bi, q, k). -/
theorem expo_apply (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (bi : Fin 4) (q k : Fin 2048) :
    val_main_v22 (F := Ideal) x0 x1 x2 x3 x4 (ix3 bi q k) = Spec.expo (Spec.scores x0 x1 x2 x3 x4) bi q k := by
  rw [val_main_v22_apply, val_main_v21_apply, val_main_v20_apply, val_main_v19_apply, scores_apply]
  have e : idx_main_v19 (idx_main_v20 (ix3 bi q k)) = ix2 bi q :=
    funext fun a => match a with | ⟨0, _⟩ => rfl | ⟨1, _⟩ => rfl
  rw [e, rowMax_apply]
  rfl

/-- The row sums read at (bi, q). -/
theorem denom_apply (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (bi : Fin 4) (q : Fin 2048) :
    val_main_v23 (F := Ideal) x0 x1 x2 x3 x4 (ix2 bi q) = Spec.denom (Spec.scores x0 x1 x2 x3 x4) bi q := by
  rw [val_main_v23_apply, val_main_cst_3_apply]
  simp only [Ideal.ofBits_def, Ideal.ofBits_zero_f32, zero_add]
  unfold Spec.denom
  refine Finset.sum_congr rfl fun k _ => ?_
  rw [← expo_apply]
  exact congrArg _ (funext fun a => match a with | ⟨0, _⟩ => rfl | ⟨1, _⟩ => rfl | ⟨2, _⟩ => rfl)

/-- The softmax weights read at (bi, q, k). -/
theorem prob_apply (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (bi : Fin 4) (q k : Fin 2048) :
    val_main_v26 (F := Ideal) x0 x1 x2 x3 x4 (ix3 bi q k) = Spec.prob (Spec.scores x0 x1 x2 x3 x4) bi q k := by
  rw [val_main_v26_apply, val_main_v25_apply, val_main_v24_apply, expo_apply]
  have e : idx_main_v24 (idx_main_v25 (ix3 bi q k)) = ix2 bi q :=
    funext fun a => match a with | ⟨0, _⟩ => rfl | ⟨1, _⟩ => rfl
  rw [e, denom_apply]
  rfl

/-! ## The result -/

/-- The reference's result read at (bi, q, h) is the specification's. -/
theorem attn_apply (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (bi : Fin 4) (q : Fin 2048) (h : Fin 1024) :
    val_main_v27 (F := Ideal) x0 x1 x2 x3 x4 x5 x6 (ix3 bi q h) = Spec.attn x0 x1 x2 x3 x4 x5 x6 bi q h := by
  rw [val_main_v27_apply, val_main_v11_eq]
  unfold Spec.attn
  refine Finset.sum_congr rfl fun k _ => congrArg₂ (· * ·) ?_ ?_
  · rw [← prob_apply]
    exact congrArg _ (funext fun a => match a with | ⟨0, _⟩ => rfl | ⟨1, _⟩ => rfl | ⟨2, _⟩ => rfl)
  · rw [← proj_apply]
    exact congrArg _ (funext fun a => match a with | ⟨0, _⟩ => rfl | ⟨1, _⟩ => rfl | ⟨2, _⟩ => rfl)

/-- The reference's result, as an array, is the specification at each index's coordinates. -/
theorem ref_eq (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    val_main_v27 (F := Ideal) x0 x1 x2 x3 x4 x5 x6 = fun i => Spec.attn x0 x1 x2 x3 x4 x5 x6 (i 0) (i 1) (i 2) := by
  funext i
  obtain ⟨bi, q, h, rfl⟩ : ∃ (bi : Fin 4) (q : Fin 2048) (h : Fin 1024), i = ix3 bi q h := ⟨i 0, i 1, i 2, eq_ix3 i⟩
  exact attn_apply x0 x1 x2 x3 x4 x5 x6 bi q h

/-- What the reference's run leaves in its result buffer: the specification of the argument arrays in memory. -/
theorem res_eq (m : (ℓ : Loc nD τ sig) → Buf (Elt Ideal) ℓ) (c : Dev nD) :
    Cert.ReferenceIdeal.Value.res_main_v27 (F := Ideal) m c
      = fun i => Spec.attn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (i 0) (i 1) (i 2) :=
  (val_main_v27_eq m c).trans (ref_eq _ _ _ _ _ _ _)

end Cert.ReferenceIdeal.RefValue

end
-- ==== Proof.RefFrame.lean ====
/-
  The reference program's run, restated with the specification: every execution ends with the result buffer holding
  the attention layer of the argument arrays, index by index, and the argument arrays unchanged; and, forgetting the
  result, the reference's frame claim.
-/
import proofs.«156329_j81458349736252_2_alg».proof.Defs
import proofs.«156329_j81458349736252_2_alg».proof.Proof.Gen.Pre_finite_inputs
import proofs.«156329_j81458349736252_2_alg».proof.Proof.RefValue

noncomputable section

namespace Cert.ReferenceIdeal.RefValue

open Cert.ReferenceIdeal Cert.ReferenceIdeal.Gen
open Idealize.ShloMosaic Idealize.ShloMosaic.TcCoe Idealize.SL.Sem

/-- From any memory, the reference runs to the end with its result the specification of the argument arrays it was
    launched with, and those arrays unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
          = (fun i => Spec.attn (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => ⟨(h c).1.trans (res_eq m c), (h c).2⟩)
    (Cert.ReferenceIdeal.Value.run (F := Ideal) m ρ)

/-- The reference's frame claim: it runs to the end and leaves its argument arrays as they were. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.ProjValue.lean ====
/- The VALUE of region 0 (the QKV projection) at the ideal instance: the array the region's write-backs leave in the
   output window is, entry by entry, the row of `x` times the column of the concatenated weights plus the bias. -/
import proofs.«156329_j81458349736252_2_alg».proof.Proof.KI.Proj
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The body's arithmetic at an index -/

/-- The dimension numbers of the body's one product: rows of the left operand against columns of the right. -/
abbrev D0 : DotDims S512x1024 S1024x3072 S512x3072 := dot_S512x1024_S1024x3072_S512x3072_1_0_0_1_n_n

theorem lhs0 (i : S512x3072.Idx) (k : D0.contr.Idx) : (D0.lhsIdx i k 0).val = (i 0).val := by
  unfold DotDims.lhsIdx
  rw [dif_neg (show ¬(0 : Fin S512x1024.rank) ∈ D0.lhsBatch by decide), dif_pos (show (0 : Fin S512x1024.rank) ∈ D0.lhsNonContracting by decide)]
  rfl
theorem lhs1 (i : S512x3072.Idx) (k : D0.contr.Idx) : (D0.lhsIdx i k 1).val = (k ⟨0, by decide⟩).val :=
  D0.lhsIdx_val_of_single rfl i k
theorem rhs0 (i : S512x3072.Idx) (k : D0.contr.Idx) : (D0.rhsIdx i k 0).val = (k ⟨0, by decide⟩).val :=
  D0.rhsIdx_val_of_single rfl i k
theorem rhs1 (i : S512x3072.Idx) (k : D0.contr.Idx) : (D0.rhsIdx i k 1).val = (i 1).val := by
  unfold DotDims.rhsIdx
  rw [dif_neg (show ¬(1 : Fin S1024x3072.rank) ∈ D0.rhsBatch by decide), dif_pos (show (1 : Fin S1024x3072.rank) ∈ D0.rhsNonContracting by decide)]
  rfl

/-- The product into a zero accumulator, at entry `(p, q)`: row `p` of the left operand against column `q` of the right. -/
theorem matmul_at (l : FVec Ideal S512x1024 .bf16) (r : FVec Ideal S1024x3072 .bf16) (p : Fin 512) (q : Fin 3072) :
    matmul D0 none l r (constant S512x3072 .f32 0x00000000#32) (ix2 p q) = ∑ d : Fin 1024, l (ix2 p d) * r (ix2 d q) := by
  show FloatOps.matmul D0 none l r (constant S512x3072 .f32 0x00000000#32) (ix2 p q) = _
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 p q) ((contrEquiv1 D0 1024 rfl rfl).symm k) = ix2 p k := funext fun a => Fin.ext (by
    match a with
    | ⟨0, _⟩ => exact lhs0 _ _
    | ⟨1, _⟩ => exact (lhs1 _ _).trans hk)
  have er : D0.rhsIdx (ix2 p q) ((contrEquiv1 D0 1024 rfl rfl).symm k) = ix2 k q := funext fun a => Fin.ext (by
    match a with
    | ⟨0, _⟩ => exact (rhs0 _ _).trans hk
    | ⟨1, _⟩ => exact rhs1 _ _)
  rw [el, er]

/-- The stored value at entry `(p, q)` of the block: the product plus the bias row's entry `q` (the changes of
    format are the identity at the ideal instance, the casts are between equal shapes). -/
theorem pay_at (x0 : Vec Ideal S512x1024 .f32) (x1 : Vec Ideal S1024x3072 .bf16) (x2 : Vec Ideal S1x3072 .f32)
    (p : Fin 512) (q : Fin 3072) :
    k0_pay1 x0 x1 x2 (ix2 p q) = (∑ d : Fin 1024, x0 (ix2 p d) * x1 (ix2 d q)) + x2 (ix2 (0 : Fin 1) q) := by
  unfold k0_pay1
  rw [shapeCast_self, shapeCast_self, shapeCast_self]
  exact congrArg₂ (· + ·) (matmul_at _ _ p q) (broadcastTo_1b_ab_apply x2 _ p q)

/-! ## From blocks to the array -/

/-- The result array as one function of the three arrays the region reads: entry `(r, n)` is row `r` of the first
    against column `n` of the second, plus entry `n` of the third's one row. -/
def projG (a0 : Vec Ideal S8192x1024 .f32) (a1 : Vec Ideal S1024x3072 .bf16) (a2 : Vec Ideal S1x3072 .f32) :
    Vec Ideal S8192x3072 .bf16 :=
  fun i => (∑ d : Fin 1024, a0 (ix2 (i 0 : Fin 8192) d) * a1 (ix2 d (i 1 : Fin 3072))) + a2 (ix2 (0 : Fin 1) (i 1 : Fin 3072))

theorem projG_apply (a0 : Vec Ideal S8192x1024 .f32) (a1 : Vec Ideal S1024x3072 .bf16) (a2 : Vec Ideal S1x3072 .f32)
    (r : Fin 8192) (n : Fin 3072) :
    projG a0 a1 a2 (ix2 r n) = (∑ d : Fin 1024, a0 (ix2 r d) * a1 (ix2 d n)) + a2 (ix2 (0 : Fin 1) n) := rfl

theorem hz : (![0, 0] : Fin 2 → Nat) = fun _ => 0 := funext fun a => by fin_cases a <;> rfl

/-- The index maps over the grid: the row blocks of `x` and of the result move with the point, the weights and the bias
    stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The block of `x` at point `t` is rows `512 t … 512 t + 511` of the array. -/
theorem xblk_at (c : Dev nD) (t : Fin cfg0.N) (x : S512x1024.Idx) (k : S8192x1024.Idx)
    (hk0 : (k 0).val = 512 * t.val + (x 0).val) (hk1 : (k 1).val = (x 1).val) :
    (iblk0 V c 0 t : Vec Ideal S512x1024 .f32) x = (V c main_v0 : Vec Ideal S8192x1024 .f32) k := by
  obtain ⟨e0, e1, -⟩ := idx_facts t
  unfold iblk0
  rw [View.read_apply]
  show V c main_v0 _ = V c main_v0 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The weights' block at every point is the whole array. -/
theorem wblk_at (c : Dev nD) (t : Fin cfg0.N) (x : S1024x3072.Idx) :
    (iblk0 V c 1 t : Vec Ideal S1024x3072 .bf16) x = (V c main_v2 : Vec Ideal S1024x3072 .bf16) x := by
  obtain ⟨-, -, e0, e1, -⟩ := idx_facts t
  unfold iblk0
  rw [View.read_apply]
  show V c main_v2 _ = V c main_v2 _
  congr 1
  funext a
  apply Fin.ext
  match a with
  | ⟨0, _⟩ => show win0_1.index t 0 * 1024 + 1 * (x 0).val = (x 0).val; rw [e0]; omega
  | ⟨1, _⟩ => show win0_1.index t 1 * 3072 + 1 * (x 1).val = (x 1).val; rw [e1]; omega

/-- The bias row's block at every point is the whole array. -/
theorem bblk_at (c : Dev nD) (t : Fin cfg0.N) (x : S1x3072.Idx) :
    (iblk0 V c 2 t : Vec Ideal S1x3072 .f32) x = (V c main_v4 : Vec Ideal S1x3072 .f32) x := by
  obtain ⟨-, -, -, -, e0, e1, -⟩ := idx_facts t
  unfold iblk0
  rw [View.read_apply]
  show V c main_v4 _ = V c main_v4 _
  congr 1
  funext a
  apply Fin.ext
  match a with
  | ⟨0, _⟩ => show win0_2.index t 0 * 1 + 1 * (x 0).val = (x 0).val; rw [e0]; omega
  | ⟨1, _⟩ => show win0_2.index t 1 * 3072 + 1 * (x 1).val = (x 1).val; rw [e1]; omega

/-- WHAT POINT `t` WRITES BACK is block `t` (rows `512 t …`) of `projG` of the arrays as the region finds them. -/
theorem flushed_eq (c : Dev nD) (t : Fin cfg0.N) :
    (dat0 (F := Ideal) V c).flushed 3 t
      = ((cfg0.win 3).blk t).view.read (Elt Ideal) (projG (V c main_v0) (V c main_v2) (V c main_v4)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x3072) hz, View.ld_unit_zero (S := S1x3072) hz]
  funext j
  obtain ⟨p, q, rfl⟩ : ∃ (p : Fin 512) (q : Fin 3072), j = ix2 p q := ⟨j 0, j 1, eq_ix2 j⟩
  obtain ⟨-, -, -, -, -, -, e6, e7⟩ := idx_facts t
  have hN : cfg0.N = 16 := N_0
  have hp : 512 * t.val + p.val < 8192 := by have := t.isLt; omega
  show k0_pay1 (iblk0 V c 0 t) (iblk0 V c 1 t) (iblk0 V c 2 t) (ix2 p q)
    = projG (V c main_v0) (V c main_v2) (V c main_v4) (((cfg0.win 3).blk t).view.emb (ix2 p q))
  have hemb : ((cfg0.win 3).blk t).view.emb (ix2 p q) = (ix2 (⟨512 * t.val + p.val, hp⟩ : Fin 8192) q : S8192x3072.Idx) := by
    funext a
    apply Fin.ext
    match a with
    | ⟨0, _⟩ => show win0_3.index t 0 * 512 + 1 * p.val = 512 * t.val + p.val; rw [e6]; omega
    | ⟨1, _⟩ => show win0_3.index t 1 * 3072 + 1 * q.val = q.val; rw [e7]; omega
  rw [hemb, projG_apply]
  refine (pay_at _ _ _ p q).trans ?_
  refine congrArg₂ (· + ·) (Finset.sum_congr rfl fun d _ => congrArg₂ (· * ·) ?_ ?_) ?_
  · exact xblk_at V c t (ix2 p d) (ix2 (⟨512 * t.val + p.val, hp⟩ : Fin 8192) d) rfl rfl
  · exact wblk_at V c t (ix2 d q)
  · exact bblk_at V c t (ix2 (0 : Fin 1) q)

/-- An index of the array is in point `t`'s block iff each coordinate is in the block's range on its axis. -/
theorem mem_blk (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v5).slice (win0_3.rect t)).set ↔ _
  rw [View.set_slice_whole, Rect.mem_set_unit]
  exact Iff.rfl

/-- Every row of the result is in some point's block: row `r` in that of point `r / 512`. -/
theorem covered (i : S8192x3072.Idx) :
    ∃ t : Fin cfg0.N, (cfg0.win 3).flush t = true ∧ i ∈ ((cfg0.win 3).blk t).view.set := by
  have hN : cfg0.N = 16 := N_0
  have hi0 : (i 0).val < 8192 := (i 0).isLt
  have hi1 : (i 1).val < 3072 := (i 1).isLt
  let t : Fin cfg0.N := ⟨(i 0).val / 512, by rw [hN]; omega⟩
  obtain ⟨-, -, -, -, -, -, e6, e7⟩ := idx_facts t
  have e6' : win0_3.index t (0 : Fin 2) = (i 0).val / 512 := e6
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- THE ARRAY after the region's write-backs is `projG` of the arrays the region finds. -/
theorem proj_final_fn (c : Dev nD) :
    (dat0 (F := Ideal) V c).arrAt 3 cfg0.N = projG (V c main_v0) (V c main_v2) (V c main_v4) :=
  (dat0 (F := Ideal) V c).arrAt_eq_of_cover 3 (projG (V c main_v0) (V c main_v2) (V c main_v4))
    (fun t _ => flushed_eq V c t) covered

/-- The three arrays the region reads, as it finds them, typed at their shapes: `x` as [8192, 1024], the concatenated
    weights [1024, 3072], the concatenated bias as one row [1, 3072]. -/
abbrev arrX (c : Dev nD) : Vec Ideal S8192x1024 .f32 := V c main_v0
abbrev arrW (c : Dev nD) : Vec Ideal S1024x3072 .bf16 := V c main_v2
abbrev arrB (c : Dev nD) : Vec Ideal S1x3072 .f32 := V c main_v4
/-- The result array after the region's write-backs, typed at its shape. -/
abbrev arrOut (c : Dev nD) : Vec Ideal S8192x3072 .bf16 := (dat0 (F := Ideal) V c).arrAt 3 cfg0.N

/-- The same entry by entry: entry `(r, n)` of the result is row `r` of `x` against column `n` of the concatenated
    weights, plus entry `n` of the concatenated bias. -/
theorem proj_final (c : Dev nD) (r : Fin 8192) (n : Fin 3072) :
    arrOut V c (ix2 r n) = (∑ d : Fin 1024, arrX V c (ix2 r d) * arrW V c (ix2 d n)) + arrB V c (ix2 (0 : Fin 1) n) := by
  show ((dat0 (F := Ideal) V c).arrAt 3 cfg0.N : Vec Ideal S8192x3072 .bf16) (ix2 r n) = _
  rw [proj_final_fn]
  rfl

end Cert.KernelIdeal.HandValue

end
-- ==== Proof.HostGlue.lean ====
/- The host operations around the two calls, read at an index, at the ideal instance and for ANY contents `W` of the
   buffers before them. Before the projection: `x` flattened to [8192, 1024] (row `2048 b + s` is position `s` of batch
   `b`), the three weight matrices side by side as [1024, 3072], the three biases end to end as one row [1, 3072].
   After it: the [8192, 3072] result unflattened to [4, 2048, 3072] and cut into its three column blocks of 1024. -/
import proofs.«156329_j81458349736252_2_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostGlue

open Cert.KernelIdeal Cert.KernelIdeal.Gen
open Idealize.ShloMosaic Idealize.ShloMosaic.TcCoe Idealize.SL.Sem Idealize.ShloMosaic.ValueIdx Idealize.ShloMosaic.StableHlo
open scoped BigOperators

variable (W : Valuation τ sig (Elt Ideal))

/-! ## The arrays, typed at their shapes -/

/-- The seven arguments as `W` holds them. -/
abbrev inX : Vec Ideal S4x2048x1024 .f32 := W (Proc.devRef .tc main_arg0)
abbrev inWq : Vec Ideal S1024x1024 .f32 := W (Proc.devRef .tc main_arg1)
abbrev inBq : Vec Ideal S1024 .f32 := W (Proc.devRef .tc main_arg2)
abbrev inWk : Vec Ideal S1024x1024 .f32 := W (Proc.devRef .tc main_arg3)
abbrev inBk : Vec Ideal S1024 .f32 := W (Proc.devRef .tc main_arg4)
abbrev inWv : Vec Ideal S1024x1024 .f32 := W (Proc.devRef .tc main_arg5)
abbrev inBv : Vec Ideal S1024 .f32 := W (Proc.devRef .tc main_arg6)
/-- The projection's result array as `W` holds it. -/
abbrev inP : Vec Ideal S8192x3072 .bf16 := W (Proc.devRef .tc main_v5)

/-- What the operations before the projection leave in its three operand arrays. -/
abbrev preX : Vec Ideal S8192x1024 .f32 := StableHlo.after (hostOps0 (F := Ideal)) W (Proc.devRef .tc main_v0)
abbrev preW : Vec Ideal S1024x3072 .bf16 := StableHlo.after (hostOps0 (F := Ideal)) W (Proc.devRef .tc main_v2)
abbrev preB : Vec Ideal S1x3072 .f32 := StableHlo.after (hostOps0 (F := Ideal)) W (Proc.devRef .tc main_v4)
/-- What the operations after it leave in the attention's three operand arrays. -/
abbrev postQ : Vec Ideal S4x2048x1024 .bf16 := StableHlo.after (hostOps1 (F := Ideal)) W (Proc.devRef .tc main_v7)
abbrev postK : Vec Ideal S4x2048x1024 .bf16 := StableHlo.after (hostOps1 (F := Ideal)) W (Proc.devRef .tc main_v8)
abbrev postV : Vec Ideal S4x2048x1024 .bf16 := StableHlo.after (hostOps1 (F := Ideal)) W (Proc.devRef .tc main_v9)

/-! ## Each result as the operations' term -/

theorem preX_eq : preX W = shapeCast S8192x1024 (inX W) shapeCasts_S4x2048x1024_S8192x1024 := by
  dsimp only [preX, hostOps0]
  after_results
  rfl

theorem preW_eq : preW W = (truncf .bf16 (concatenate S1024x3072 1 [⟨S1024x1024, inWq W⟩, ⟨S1024x1024, inWk W⟩, ⟨S1024x1024, inWv W⟩]
      concatenates_S1024x1024_S1024x1024_S1024x1024_S1024x3072_d1) bitsLt_bf16_f32 : FVec Ideal S1024x3072 .bf16) := by
  dsimp only [preW, hostOps0]
  after_results
  rfl

theorem preB_eq : preB W = shapeCast S1x3072 (concatenate S3072 0 [⟨S1024, inBq W⟩, ⟨S1024, inBk W⟩, ⟨S1024, inBv W⟩]
      concatenates_S1024_S1024_S1024_S3072_d0) shapeCasts_S3072_S1x3072 := by
  dsimp only [preB, hostOps0]
  after_results
  rfl

theorem postQ_eq : postQ W = extractStridedSlice S4x2048x1024 ![0, 0, 0]
      (shapeCast S4x2048x3072 (inP W) shapeCasts_S8192x3072_S4x2048x3072) slices_S4x2048x3072_S4x2048x1024_0_0_0 := by
  dsimp only [postQ, hostOps1]
  after_results
  rfl

theorem postK_eq : postK W = extractStridedSlice S4x2048x1024 ![0, 0, 1024]
      (shapeCast S4x2048x3072 (inP W) shapeCasts_S8192x3072_S4x2048x3072) slices_S4x2048x3072_S4x2048x1024_0_0_1024 := by
  dsimp only [postK, hostOps1]
  after_results
  rfl

theorem postV_eq : postV W = extractStridedSlice S4x2048x1024 ![0, 0, 2048]
      (shapeCast S4x2048x3072 (inP W) shapeCasts_S8192x3072_S4x2048x3072) slices_S4x2048x3072_S4x2048x1024_0_0_2048 := by
  dsimp only [postV, hostOps1]
  after_results
  rfl

/-! ## Read at an index -/

/-- Row `2048 b + s` of the flattened `x` is position `s` of batch `b`. -/
theorem preX_at (b : Fin 4) (s : Fin 2048) (d : Fin 1024) (r : Fin 8192) (hr : r.val = b.val * 2048 + s.val) :
    preX W (ix2 r d) = inX W (ix3 b s d) := by
  rw [preX_eq]
  refine shapeCast_apply (inX W) shapeCasts_S4x2048x1024_S8192x1024 (ix2 r d) (ix3 b s d) ?_
  rw [Shape.rowMajor_val_three, Shape.rowMajor_val_two]
  show (b.val * 2048 + s.val) * 1024 + d.val = r.val * 1024 + d.val
  rw [hr]

/-- A column of the weights side by side is a column of one of the three matrices: of piece `k`, whose columns start at
    `pre`, when it lies in that piece's span. -/
theorem concatW_at (a0 a1 a2 : Vec Ideal S1024x1024 .f32) (d h : Fin 1024) (n : Fin 3072) :
    (n.val = h.val → concatenate S1024x3072 1 [⟨S1024x1024, a0⟩, ⟨S1024x1024, a1⟩, ⟨S1024x1024, a2⟩]
        concatenates_S1024x1024_S1024x1024_S1024x1024_S1024x3072_d1 (ix2 d n) = a0 (ix2 d h))
    ∧ (n.val = 1024 + h.val → concatenate S1024x3072 1 [⟨S1024x1024, a0⟩, ⟨S1024x1024, a1⟩, ⟨S1024x1024, a2⟩]
        concatenates_S1024x1024_S1024x1024_S1024x1024_S1024x3072_d1 (ix2 d n) = a1 (ix2 d h))
    ∧ (n.val = 2048 + h.val → concatenate S1024x3072 1 [⟨S1024x1024, a0⟩, ⟨S1024x1024, a1⟩, ⟨S1024x1024, a2⟩]
        concatenates_S1024x1024_S1024x1024_S1024x1024_S1024x3072_d1 (ix2 d n) = a2 (ix2 d h)) := by
  refine ⟨fun hn => ?_, fun hn => ?_, fun hn => ?_⟩
  · refine concatenate_apply_piece (t := S1024x3072) (1 : Fin 2) [⟨S1024x1024, a0⟩, ⟨S1024x1024, a1⟩, ⟨S1024x1024, a2⟩] concatenates_S1024x1024_S1024x1024_S1024x1024_S1024x3072_d1 (ix2 d n) 0 (show 0 < 3 by decide) S1024x1024 a0 rfl rfl 0 rfl (ix2 d h) (fun b hb => ?_) ?_
    · match b with
      | ⟨0, _⟩ => rfl
      | ⟨1, _⟩ => exact absurd rfl hb
    · show 0 + h.val = n.val
      omega
  · refine concatenate_apply_piece (t := S1024x3072) (1 : Fin 2) [⟨S1024x1024, a0⟩, ⟨S1024x1024, a1⟩, ⟨S1024x1024, a2⟩] concatenates_S1024x1024_S1024x1024_S1024x1024_S1024x3072_d1 (ix2 d n) 1 (show 1 < 3 by decide) S1024x1024 a1 rfl rfl 1024 rfl (ix2 d h) (fun b hb => ?_) ?_
    · match b with
      | ⟨0, _⟩ => rfl
      | ⟨1, _⟩ => exact absurd rfl hb
    · show 1024 + h.val = n.val
      omega
  · refine concatenate_apply_piece (t := S1024x3072) (1 : Fin 2) [⟨S1024x1024, a0⟩, ⟨S1024x1024, a1⟩, ⟨S1024x1024, a2⟩] concatenates_S1024x1024_S1024x1024_S1024x1024_S1024x3072_d1 (ix2 d n) 2 (show 2 < 3 by decide) S1024x1024 a2 rfl rfl 2048 rfl (ix2 d h) (fun b hb => ?_) ?_
    · match b with
      | ⟨0, _⟩ => rfl
      | ⟨1, _⟩ => exact absurd rfl hb
    · show 2048 + h.val = n.val
      omega

/-- Columns `0 … 1023` of the weights side by side are `Wq`'s, `1024 … 2047` are `Wk`'s, `2048 … 3071` are `Wv`'s
    (the change of format is the identity at the ideal instance). -/
theorem preW_q (d h : Fin 1024) (n : Fin 3072) (hn : n.val = h.val) : preW W (ix2 d n) = inWq W (ix2 d h) := by
  rw [preW_eq]; exact (concatW_at (inWq W) (inWk W) (inWv W) d h n).1 hn
theorem preW_k (d h : Fin 1024) (n : Fin 3072) (hn : n.val = 1024 + h.val) : preW W (ix2 d n) = inWk W (ix2 d h) := by
  rw [preW_eq]; exact (concatW_at (inWq W) (inWk W) (inWv W) d h n).2.1 hn
theorem preW_v (d h : Fin 1024) (n : Fin 3072) (hn : n.val = 2048 + h.val) : preW W (ix2 d n) = inWv W (ix2 d h) := by
  rw [preW_eq]; exact (concatW_at (inWq W) (inWk W) (inWv W) d h n).2.2 hn

/-- An entry of the biases end to end is an entry of one of the three. -/
theorem concatB_at (a0 a1 a2 : Vec Ideal S1024 .f32) (h : Fin 1024) (n : Fin 3072) :
    (n.val = h.val → concatenate S3072 0 [⟨S1024, a0⟩, ⟨S1024, a1⟩, ⟨S1024, a2⟩]
        concatenates_S1024_S1024_S1024_S3072_d0 (ix1 n) = a0 (ix1 h))
    ∧ (n.val = 1024 + h.val → concatenate S3072 0 [⟨S1024, a0⟩, ⟨S1024, a1⟩, ⟨S1024, a2⟩]
        concatenates_S1024_S1024_S1024_S3072_d0 (ix1 n) = a1 (ix1 h))
    ∧ (n.val = 2048 + h.val → concatenate S3072 0 [⟨S1024, a0⟩, ⟨S1024, a1⟩, ⟨S1024, a2⟩]
        concatenates_S1024_S1024_S1024_S3072_d0 (ix1 n) = a2 (ix1 h)) := by
  refine ⟨fun hn => ?_, fun hn => ?_, fun hn => ?_⟩
  · refine concatenate_apply_piece (t := S3072) (0 : Fin 1) [⟨S1024, a0⟩, ⟨S1024, a1⟩, ⟨S1024, a2⟩] concatenates_S1024_S1024_S1024_S3072_d0 (ix1 n) 0 (show 0 < 3 by decide) S1024 a0 rfl rfl 0 rfl (ix1 h) (fun b hb => ?_) ?_
    · match b with
      | ⟨0, _⟩ => exact absurd rfl hb
    · show 0 + h.val = n.val
      omega
  · refine concatenate_apply_piece (t := S3072) (0 : Fin 1) [⟨S1024, a0⟩, ⟨S1024, a1⟩, ⟨S1024, a2⟩] concatenates_S1024_S1024_S1024_S3072_d0 (ix1 n) 1 (show 1 < 3 by decide) S1024 a1 rfl rfl 1024 rfl (ix1 h) (fun b hb => ?_) ?_
    · match b with
      | ⟨0, _⟩ => exact absurd rfl hb
    · show 1024 + h.val = n.val
      omega
  · refine concatenate_apply_piece (t := S3072) (0 : Fin 1) [⟨S1024, a0⟩, ⟨S1024, a1⟩, ⟨S1024, a2⟩] concatenates_S1024_S1024_S1024_S3072_d0 (ix1 n) 2 (show 2 < 3 by decide) S1024 a2 rfl rfl 2048 rfl (ix1 h) (fun b hb => ?_) ?_
    · match b with
      | ⟨0, _⟩ => exact absurd rfl hb
    · show 2048 + h.val = n.val
      omega

/-- Entries `0 … 1023` of the bias row are `bq`'s, `1024 … 2047` are `bk`'s, `2048 … 3071` are `bv`'s. -/
theorem preB_q (h : Fin 1024) (n : Fin 3072) (hn : n.val = h.val) : preB W (ix2 (0 : Fin 1) n) = inBq W (ix1 h) := by
  rw [preB_eq]
  exact (shapeCast_a_1a_apply _ shapeCasts_S3072_S1x3072 0 n).trans ((concatB_at (inBq W) (inBk W) (inBv W) h n).1 hn)
theorem preB_k (h : Fin 1024) (n : Fin 3072) (hn : n.val = 1024 + h.val) : preB W (ix2 (0 : Fin 1) n) = inBk W (ix1 h) := by
  rw [preB_eq]
  exact (shapeCast_a_1a_apply _ shapeCasts_S3072_S1x3072 0 n).trans ((concatB_at (inBq W) (inBk W) (inBv W) h n).2.1 hn)
theorem preB_v (h : Fin 1024) (n : Fin 3072) (hn : n.val = 2048 + h.val) : preB W (ix2 (0 : Fin 1) n) = inBv W (ix1 h) := by
  rw [preB_eq]
  exact (shapeCast_a_1a_apply _ shapeCasts_S3072_S1x3072 0 n).trans ((concatB_at (inBq W) (inBk W) (inBv W) h n).2.2 hn)

/-- The unflattened result cut at column offset `o`: position `s` of batch `b`, feature `h`, is row `2048 b + s`,
    column `o + h` of the flat array. -/
theorem slice_at (P : Vec Ideal S8192x3072 .bf16) (o : Nat) (hs : S4x2048x3072.Slices ![0, 0, o] S4x2048x1024)
    (b : Fin 4) (s : Fin 2048) (h : Fin 1024) (r : Fin 8192) (n : Fin 3072)
    (hr : r.val = b.val * 2048 + s.val) (hn : n.val = o + h.val) :
    extractStridedSlice S4x2048x1024 ![0, 0, o] (shapeCast S4x2048x3072 P shapeCasts_S8192x3072_S4x2048x3072) hs (ix3 b s h)
      = P (ix2 r n) := by
  refine (extractStridedSlice_apply ![0, 0, o] _ hs (ix3 b s h) (ix3 b s n) fun a => ?_).trans ?_
  · match a with
    | ⟨0, _⟩ => show b.val = 0 + b.val; omega
    | ⟨1, _⟩ => show s.val = 0 + s.val; omega
    | ⟨2, _⟩ => show n.val = o + h.val; exact hn
  · refine shapeCast_apply P shapeCasts_S8192x3072_S4x2048x3072 (ix3 b s n) (ix2 r n) ?_
    rw [Shape.rowMajor_val_three, Shape.rowMajor_val_two]
    show r.val * 3072 + n.val = (b.val * 2048 + s.val) * 3072 + n.val
    rw [hr]

theorem postQ_at (b : Fin 4) (s : Fin 2048) (h : Fin 1024) (r : Fin 8192) (n : Fin 3072)
    (hr : r.val = b.val * 2048 + s.val) (hn : n.val = h.val) : postQ W (ix3 b s h) = inP W (ix2 r n) := by
  rw [postQ_eq]; exact slice_at (inP W) 0 _ b s h r n hr (by omega)
theorem postK_at (b : Fin 4) (s : Fin 2048) (h : Fin 1024) (r : Fin 8192) (n : Fin 3072)
    (hr : r.val = b.val * 2048 + s.val) (hn : n.val = 1024 + h.val) : postK W (ix3 b s h) = inP W (ix2 r n) := by
  rw [postK_eq]; exact slice_at (inP W) 1024 _ b s h r n hr hn
theorem postV_at (b : Fin 4) (s : Fin 2048) (h : Fin 1024) (r : Fin 8192) (n : Fin 3072)
    (hr : r.val = b.val * 2048 + s.val) (hn : n.val = 2048 + h.val) : postV W (ix3 b s h) = inP W (ix2 r n) := by
  rw [postV_eq]; exact slice_at (inP W) 2048 _ b s h r n hr hn

end Cert.KernelIdeal.HostGlue

end
-- ==== Proof.QKV.lean ====
/- The three operand arrays of the attention call when it is entered, at the ideal instance: each is the specification's
   affine projection of the launch arguments. The chain: the slices and the reshape after the projection call read its
   result array; that array is, entry by entry, a row of the flattened `x` against a column of the weights side by side
   plus an entry of the biases end to end; and those three arrays are the launch arguments re-laid. -/
import proofs.«156329_j81458349736252_2_alg».proof.Proof.KI.Run
import proofs.«156329_j81458349736252_2_alg».proof.Proof.ProjValue
import proofs.«156329_j81458349736252_2_alg».proof.Proof.HostGlue
import proofs.«156329_j81458349736252_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open scoped BigOperators

variable (m : (ℓ : Loc nD τ sig) → Buf (Elt Ideal) ℓ)

/-- Entry `(2048 b + s, n)` of the projection call's result array is the projection of position `s` of batch `b` onto
    the weight column and bias entry that column `n` of the side-by-side layout names. -/
theorem proj_entry (c : Dev nD) (b : Fin 4) (s : Fin 2048) (h : Fin 1024) (r : Fin 8192) (n : Fin 3072)
    (hr : r.val = b.val * 2048 + s.val)
    (Wm : (⟨2, ![1024, 1024]⟩ : Shape).Idx → EReal) (bm : (⟨1, ![1024]⟩ : Shape).Idx → EReal)
    (hW : ∀ d : Fin 1024, HostGlue.preW (hW0 m c) (ix2 d n) = Wm (ix2 d h))
    (hB : HostGlue.preB (hW0 m c) (ix2 (0 : Fin 1) n) = bm (ix1 h)) :
    HostGlue.inP (hW2 m c) (ix2 r n) = Cert.Spec.proj (m ((c : Thread nD τ).loc main_arg0)) Wm bm b s h := by
  have e3 : HostGlue.inP (hW2 m c) = arrOut (hV1 m) c := hW2_arr m c 3
  rw [e3, proj_final (hV1 m) c r n]
  unfold Cert.Spec.proj
  refine congrArg₂ (· + ·) (Finset.sum_congr rfl fun d _ => congrArg₂ (· * ·) ?_ ?_) ?_
  · exact HostGlue.preX_at (hW0 m c) b s d r hr
  · exact hW d
  · exact hB

/-- The queries: columns `0 … 1023`. -/
theorem q_entry (c : Dev nD) (b : Fin 4) (s : Fin 2048) (h : Fin 1024) :
    HostGlue.postQ (hW2 m c) (ix3 b s h)
      = Cert.Spec.proj (m ((c : Thread nD τ).loc main_arg0)) (m ((c : Thread nD τ).loc main_arg1)) (m ((c : Thread nD τ).loc main_arg2)) b s h := by
  have hr : b.val * 2048 + s.val < 8192 := by have := b.isLt; have := s.isLt; omega
  have hn : h.val < 3072 := by have := h.isLt; omega
  rw [HostGlue.postQ_at (hW2 m c) b s h ⟨b.val * 2048 + s.val, hr⟩ ⟨h.val, hn⟩ rfl rfl]
  exact proj_entry m c b s h _ _ rfl _ _ (fun d => HostGlue.preW_q (hW0 m c) d h _ rfl) (HostGlue.preB_q (hW0 m c) h _ rfl)

/-- The keys: columns `1024 … 2047`. -/
theorem k_entry (c : Dev nD) (b : Fin 4) (s : Fin 2048) (h : Fin 1024) :
    HostGlue.postK (hW2 m c) (ix3 b s h)
      = Cert.Spec.proj (m ((c : Thread nD τ).loc main_arg0)) (m ((c : Thread nD τ).loc main_arg3)) (m ((c : Thread nD τ).loc main_arg4)) b s h := by
  have hr : b.val * 2048 + s.val < 8192 := by have := b.isLt; have := s.isLt; omega
  have hn : 1024 + h.val < 3072 := by have := h.isLt; omega
  rw [HostGlue.postK_at (hW2 m c) b s h ⟨b.val * 2048 + s.val, hr⟩ ⟨1024 + h.val, hn⟩ rfl rfl]
  exact proj_entry m c b s h _ _ rfl _ _ (fun d => HostGlue.preW_k (hW0 m c) d h _ rfl) (HostGlue.preB_k (hW0 m c) h _ rfl)

/-- The values: columns `2048 … 3071`. -/
theorem v_entry (c : Dev nD) (b : Fin 4) (s : Fin 2048) (h : Fin 1024) :
    HostGlue.postV (hW2 m c) (ix3 b s h)
      = Cert.Spec.proj (m ((c : Thread nD τ).loc main_arg0)) (m ((c : Thread nD τ).loc main_arg5)) (m ((c : Thread nD τ).loc main_arg6)) b s h := by
  have hr : b.val * 2048 + s.val < 8192 := by have := b.isLt; have := s.isLt; omega
  have hn : 2048 + h.val < 3072 := by have := h.isLt; omega
  rw [HostGlue.postV_at (hW2 m c) b s h ⟨b.val * 2048 + s.val, hr⟩ ⟨2048 + h.val, hn⟩ rfl rfl]
  exact proj_entry m c b s h _ _ rfl _ _ (fun d => HostGlue.preW_v (hW0 m c) d h _ rfl) (HostGlue.preB_v (hW0 m c) h _ rfl)

/-- The same three, spelled at the contents the attention call is entered with. -/
theorem q_entry' (c : Dev nD) (b : Fin 4) (s : Fin 2048) (h : Fin 1024) :
    (hV3 m c main_v7 : Vec Ideal S4x2048x1024 .bf16) (ix3 b s h)
      = Cert.Spec.proj (m ((c : Thread nD τ).loc main_arg0)) (m ((c : Thread nD τ).loc main_arg1)) (m ((c : Thread nD τ).loc main_arg2)) b s h :=
  q_entry m c b s h
theorem k_entry' (c : Dev nD) (b : Fin 4) (s : Fin 2048) (h : Fin 1024) :
    (hV3 m c main_v8 : Vec Ideal S4x2048x1024 .bf16) (ix3 b s h)
      = Cert.Spec.proj (m ((c : Thread nD τ).loc main_arg0)) (m ((c : Thread nD τ).loc main_arg3)) (m ((c : Thread nD τ).loc main_arg4)) b s h :=
  k_entry m c b s h
theorem v_entry' (c : Dev nD) (b : Fin 4) (s : Fin 2048) (h : Fin 1024) :
    (hV3 m c main_v9 : Vec Ideal S4x2048x1024 .bf16) (ix3 b s h)
      = Cert.Spec.proj (m ((c : Thread nD τ).loc main_arg0)) (m ((c : Thread nD τ).loc main_arg5)) (m ((c : Thread nD τ).loc main_arg6)) b s h :=
  v_entry m c b s h

end Cert.KernelIdeal.HandValue

end
-- ==== Proof.AttnSpec.lean ====
/-
  The attention call's result as one function of its three input arrays (queries, keys, values, each [4, 2048, 1024]):
  entry (b, q, h) is the softmax-weighted sum over the 2048 key positions of the values' feature h, the weights the
  softmax of the scaled inner products of query row q with the key rows.
-/
import proofs.«156329_j81458349736252_2_alg».proof.Proof.Spec
import proofs.«156329_j81458349736252_2_alg».proof.KernelIdeal

noncomputable section

namespace Cert.KernelIdeal.HandValue

open Cert.KernelIdeal
open Idealize.ShloMosaic Idealize.ShloMosaic.ValueIdx
open scoped BigOperators

/-- Softmax attention over functions of (batch, position, feature). -/
def attnOf (Qf Kf Vf : Fin 4 → Fin 2048 → Fin 1024 → EReal) (bi : Fin 4) (q : Fin 2048) (h : Fin 1024) : EReal :=
  ∑ k : Fin 2048, Cert.Spec.prob (Cert.Spec.score Qf Kf) bi q k * Vf bi k h

/-- The same over arrays. -/
def attnG (a7 a8 a9 : Vec Ideal S4x2048x1024 .bf16) : Vec Ideal S4x2048x1024 .f32 :=
  fun i => attnOf (fun b s h => a7 (ix3 b s h)) (fun b s h => a8 (ix3 b s h)) (fun b s h => a9 (ix3 b s h))
    (i 0 : Fin 4) (i 1 : Fin 2048) (i 2 : Fin 1024)

theorem attnG_apply (a7 a8 a9 : Vec Ideal S4x2048x1024 .bf16) (b : Fin 4) (q : Fin 2048) (h : Fin 1024) :
    attnG a7 a8 a9 (ix3 b q h)
      = attnOf (fun b s h => a7 (ix3 b s h)) (fun b s h => a8 (ix3 b s h)) (fun b s h => a9 (ix3 b s h)) b q h := rfl

end Cert.KernelIdeal.HandValue

end
-- ==== Proof.AttnStep.lean ====
/-
  One pass of the attention body over a key tile, as a pure function of the point's blocks and of the running maximum,
  denominator and numerator; and the values these start from at key tile 0.
-/
import proofs.«156329_j81458349736252_2_alg».proof.Proof.Gen.KernelIdeal.Skeleton

noncomputable section

namespace Cert.KernelIdeal.Pay

open Cert.KernelIdeal Cert.KernelIdeal.Gen
open Idealize.ShloMosaic

variable {F : FTy → Type} [FloatOps F]

/-- The new running maximum, denominator and numerator from the old ones and the point's query, key and value blocks. -/
def stepV (Q : Vec F S1x1024x1024 .bf16) (K Vb : Vec F S1x512x1024 .bf16)
    (st : Vec F S1024x1 .f32 × Vec F S1024x1 .f32 × Vec F S1024x1024 .f32) :
    Vec F S1024x1 .f32 × Vec F S1024x1 .f32 × Vec F S1024x1024 .f32 :=
  (k1_pay2 (k1_pay9 Q K st.1), k1_pay12 Q K st.1 st.1 st.2.1,
    k1_pay1 (k1_pay7 Vb) (k1_pay10 Q K st.1 st.1) (k1_pay11 Q K st.1) st.2.2)

/-- What key tile 0 resets them to: minus infinity, zero, zero. -/
def initV : Vec F S1024x1 .f32 × Vec F S1024x1 .f32 × Vec F S1024x1024 .f32 :=
  (k1_pay4, k1_pay5, k1_pay6)

end Cert.KernelIdeal.Pay

end
-- ==== Proof.AttnBlocks.lean ====
/-
  The attention call at the ideal instance: which entries of its three input arrays each point's blocks hold, and which
  entries of the output array each point's block covers. Point `t` of the 4 × 2 × 4 grid is batch `t / 8`, query tile
  `t / 4 % 2` (1024 rows), key tile `t % 4` (512 rows).
-/
import proofs.«156329_j81458349736252_2_alg».proof.Proof.KI.Attn
import proofs.«156329_j81458349736252_2_alg».proof.Proof.AttnStep
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.KernelIdeal.Pay
open Idealize.ShloMosaic Idealize.ShloMosaic.TcCoe Idealize.SL.Sem Idealize.ShloMosaic.ValueIdx
open Idealize.ShloMosaic.Pipeline (Dat)
open scoped BigOperators

/-- The index maps over the grid. -/
theorem idx_facts1 : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = t.val / 4 % 2 ∧ win1_3.index t (2 : Fin 3) = 0 :=
  (by decide +kernel : ∀ t : Fin grid1.N, _)

variable (V : (c : Dev nD) → (b : Ref sig .tc) → Buf (Elt Ideal) ((c : Thread nD τ).loc b))

/-- The query block at point `t` is rows `1024 (t / 4 % 2) …` of batch `t / 8` of the query array. -/
theorem qblk_at (c : Dev nD) (t : Fin cfg1.N) (r d : Fin 1024) (b : Fin 4) (q : Fin 2048)
    (hb : b.val = t.val / 8) (hq : q.val = 1024 * (t.val / 4 % 2) + r.val) :
    (iblk1 V c 0 t : Vec Ideal S1x1024x1024 .bf16) (ix3 (0 : Fin 1) r d) = (V c main_v7 : Vec Ideal S4x2048x1024 .bf16) (ix3 b q d) := by
  obtain ⟨e0, e1, e2, -⟩ := idx_facts1 t
  unfold iblk1
  rw [View.read_apply]
  show V c main_v7 _ = V c main_v7 _
  congr 1
  funext a
  apply Fin.ext
  match a with
  | ⟨0, _⟩ => show win1_0.index t 0 * 1 + 1 * 0 = b.val; rw [e0, hb]; omega
  | ⟨1, _⟩ => show win1_0.index t 1 * 1024 + 1 * r.val = q.val; rw [e1, hq]; omega
  | ⟨2, _⟩ => show win1_0.index t 2 * 1024 + 1 * d.val = d.val; rw [e2]; omega

/-- The key block at point `t` is rows `512 (t % 4) …` of batch `t / 8` of the key array. -/
theorem kblk_at (c : Dev nD) (t : Fin cfg1.N) (k : Fin 512) (d : Fin 1024) (b : Fin 4) (s : Fin 2048)
    (hb : b.val = t.val / 8) (hs : s.val = 512 * (t.val % 4) + k.val) :
    (iblk1 V c 1 t : Vec Ideal S1x512x1024 .bf16) (ix3 (0 : Fin 1) k d) = (V c main_v8 : Vec Ideal S4x2048x1024 .bf16) (ix3 b s d) := by
  obtain ⟨-, -, -, e0, e1, e2, -⟩ := idx_facts1 t
  unfold iblk1
  rw [View.read_apply]
  show V c main_v8 _ = V c main_v8 _
  congr 1
  funext a
  apply Fin.ext
  match a with
  | ⟨0, _⟩ => show win1_1.index t 0 * 1 + 1 * 0 = b.val; rw [e0, hb]; omega
  | ⟨1, _⟩ => show win1_1.index t 1 * 512 + 1 * k.val = s.val; rw [e1, hs]; omega
  | ⟨2, _⟩ => show win1_1.index t 2 * 1024 + 1 * d.val = d.val; rw [e2]; omega

/-- The value block at point `t` is rows `512 (t % 4) …` of batch `t / 8` of the value array. -/
theorem vblk_at (c : Dev nD) (t : Fin cfg1.N) (k : Fin 512) (d : Fin 1024) (b : Fin 4) (s : Fin 2048)
    (hb : b.val = t.val / 8) (hs : s.val = 512 * (t.val % 4) + k.val) :
    (iblk1 V c 2 t : Vec Ideal S1x512x1024 .bf16) (ix3 (0 : Fin 1) k d) = (V c main_v9 : Vec Ideal S4x2048x1024 .bf16) (ix3 b s d) := by
  obtain ⟨-, -, -, -, -, -, e0, e1, e2, -⟩ := idx_facts1 t
  unfold iblk1
  rw [View.read_apply]
  show V c main_v9 _ = V c main_v9 _
  congr 1
  funext a
  apply Fin.ext
  match a with
  | ⟨0, _⟩ => show win1_2.index t 0 * 1 + 1 * 0 = b.val; rw [e0, hb]; omega
  | ⟨1, _⟩ => show win1_2.index t 1 * 512 + 1 * k.val = s.val; rw [e1, hs]; omega
  | ⟨2, _⟩ => show win1_2.index t 2 * 1024 + 1 * d.val = d.val; rw [e2]; omega

/-- Where the output block's entry `(r, h)` at point `t` sits in the output array. -/
theorem oemb_at (t : Fin cfg1.N) (r h : Fin 1024) (b : Fin 4) (q : Fin 2048)
    (hb : b.val = t.val / 8) (hq : q.val = 1024 * (t.val / 4 % 2) + r.val) :
    ((cfg1.win 3).blk t).view.emb (ix3 (0 : Fin 1) r h) = (ix3 b q h : S4x2048x1024.Idx) := by
  obtain ⟨-, -, -, -, -, -, -, -, -, e0, e1, e2⟩ := idx_facts1 t
  funext a
  apply Fin.ext
  match a with
  | ⟨0, _⟩ => show win1_3.index t 0 * 1 + 1 * 0 = b.val; rw [e0, hb]; omega
  | ⟨1, _⟩ => show win1_3.index t 1 * 1024 + 1 * r.val = q.val; rw [e1, hq]; omega
  | ⟨2, _⟩ => show win1_3.index t 2 * 1024 + 1 * h.val = h.val; rw [e2]; omega

/-- An index of the output array is in point `t`'s block iff each coordinate is in the block's range on its axis. -/
theorem mem_blk1 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v10).slice (win1_3.rect t)).set ↔ _
  rw [View.set_slice_whole, Rect.mem_set_unit]
  exact Iff.rfl

/-- Every entry of the output array is in the block of a point that writes back: entry `(b, q, h)` in that of the last
    key tile of batch `b`, query tile `q / 1024`. -/
theorem covered1 (i : S4x2048x1024.Idx) :
    ∃ t : Fin cfg1.N, (cfg1.win 3).flush t = true ∧ i ∈ ((cfg1.win 3).blk t).view.set := by
  have hN : cfg1.N = 32 := N_1
  have hi0 : (i 0).val < 4 := (i 0).isLt
  have hi1 : (i 1).val < 2048 := (i 1).isLt
  have hi2 : (i 2).val < 1024 := (i 2).isLt
  let t : Fin cfg1.N := ⟨(i 0).val * 8 + (i 1).val / 1024 * 4 + 3, by rw [hN]; omega⟩
  obtain ⟨-, -, -, -, -, -, -, -, -, e0, e1, e2⟩ := idx_facts1 t
  have e0' : win1_3.index t (0 : Fin 3) = ((i 0).val * 8 + (i 1).val / 1024 * 4 + 3) / 8 := e0
  have e1' : win1_3.index t (1 : Fin 3) = ((i 0).val * 8 + (i 1).val / 1024 * 4 + 3) / 4 % 2 := e1
  refine ⟨t, (flush1_3 t).mpr (by show ((i 0).val * 8 + (i 1).val / 1024 * 4 + 3) % 4 = 3; omega), ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

end Cert.KernelIdeal.HandValue

end
-- ==== Proof.KI.AttnPieces.lean ====
/-
  Region 1 (the attention call): each buffer a case leaves, read back, is the body's arithmetic of the point's input
  blocks and of what the scratch operands held: the new running maximum, denominator and numerator, and at key tile 3
  the quotient.
-/
import proofs.«156329_j81458349736252_2_alg».proof.Proof.KI.Attn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

theorem sout1_B_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 hc0 hc1 x0 x1 x2 xs0 xs1 xs2 = (k1_pay2 (k1_pay9 x0 x1 xs0)) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  first
    | rw [View.canon_unit_zero hz2]
    | rw [View.canon_cons_unit_zero hz2]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

theorem sout1_B_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 hc0 hc1 x0 x1 x2 xs0 xs1 xs2 = (k1_pay12 x0 x1 xs0 xs0 xs1) := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  first
    | rw [View.canon_unit_zero hz2]
    | rw [View.canon_cons_unit_zero hz2]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

theorem sout1_B_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 hc0 hc1 x0 x1 x2 xs0 xs1 xs2 = (k1_pay1 (k1_pay7 x2) (k1_pay10 x0 x1 xs0 xs0) (k1_pay11 x0 x1 xs0) xs2) := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  first
    | rw [View.canon_unit_zero hz2]
    | rw [View.canon_cons_unit_zero hz2]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

theorem sout1_C_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_C_0 c i arg3 harg3 arg4 harg4 arg5 harg5 arg6 harg6 arg7 harg7 arg8 harg8 arg9 harg9 hc0 hc1 x0 x1 x2 xs0 xs1 xs2 = (k1_pay2 (k1_pay9 x0 x1 xs0)) := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  first
    | rw [View.canon_unit_zero hz2]
    | rw [View.canon_cons_unit_zero hz2]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

theorem sout1_C_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_C_1 c i arg3 harg3 arg4 harg4 arg5 harg5 arg6 harg6 arg7 harg7 arg8 harg8 arg9 harg9 hc0 hc1 x0 x1 x2 xs0 xs1 xs2 = (k1_pay12 x0 x1 xs0 xs0 xs1) := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  first
    | rw [View.canon_unit_zero hz2]
    | rw [View.canon_cons_unit_zero hz2]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

theorem sout1_C_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_C_2 c i arg3 harg3 arg4 harg4 arg5 harg5 arg6 harg6 arg7 harg7 arg8 harg8 arg9 harg9 hc0 hc1 x0 x1 x2 xs0 xs1 xs2 = (k1_pay1 (k1_pay7 x2) (k1_pay10 x0 x1 xs0 xs0) (k1_pay11 x0 x1 xs0) xs2) := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  first
    | rw [View.canon_unit_zero hz2]
    | rw [View.canon_cons_unit_zero hz2]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

theorem out1_C_3_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    out1_C_3 c i arg3 harg3 arg4 harg4 arg5 harg5 arg6 harg6 arg7 harg7 arg8 harg8 arg9 harg9 hc0 hc1 x0 x1 x2 xs0 xs1 xs2 = (k1_pay3 (k1_pay1 (k1_pay7 x2) (k1_pay10 x0 x1 xs0 xs0) (k1_pay11 x0 x1 xs0) xs2) (k1_pay12 x0 x1 xs0 xs0 xs1)) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  first
    | rw [View.canon_unit_zero hz3]
    | rw [View.canon_cons_unit_zero hz3]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

theorem sout1_A_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    sout1_A_0 c i arg3 harg3 arg4 harg4 arg5 harg5 arg6 harg6 arg7 harg7 arg8 harg8 arg9 harg9 hc0 hc1 x0 x1 x2 = (k1_pay2 (k1_pay9 x0 x1 (k1_pay4 (F := F)))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  first
    | rw [View.canon_unit_zero hz2]
    | rw [View.canon_cons_unit_zero hz2]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

theorem sout1_A_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    sout1_A_1 c i arg3 harg3 arg4 harg4 arg5 harg5 arg6 harg6 arg7 harg7 arg8 harg8 arg9 harg9 hc0 hc1 x0 x1 x2 = (k1_pay12 x0 x1 (k1_pay4 (F := F)) (k1_pay4 (F := F)) (k1_pay5 (F := F))) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  first
    | rw [View.canon_unit_zero hz2]
    | rw [View.canon_cons_unit_zero hz2]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

theorem sout1_A_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    sout1_A_2 c i arg3 harg3 arg4 harg4 arg5 harg5 arg6 harg6 arg7 harg7 arg8 harg8 arg9 harg9 hc0 hc1 x0 x1 x2 = (k1_pay1 (k1_pay7 x2) (k1_pay10 x0 x1 (k1_pay4 (F := F)) (k1_pay4 (F := F))) (k1_pay11 x0 x1 (k1_pay4 (F := F))) (k1_pay6 (F := F))) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  first
    | rw [View.canon_unit_zero hz2]
    | rw [View.canon_cons_unit_zero hz2]
  simp only [View.readAt_eq_ld, Memref.IsWhole.read_unread, View.ld_unit_zero (S := S1x1024x1024) hz3, View.ld_unit_zero (S := S1x512x1024) hz3,
    View.ld_unit_zero (S := S1024x1) hz2, View.ld_unit_zero (S := S1024x1024) hz2,
    View.readCov_unit_zero (S := S1024x1) _ hz2, View.readCov_unit_zero (S := S1024x1024) _ hz2]
  try rfl

end Cert.KernelIdeal.Hand

end
-- ==== Proof.KI.AttnState.lean ====
/-
  Region 1 (the attention call): the recurrence over the grid points, restated through one pure pass over a key tile.
  After a point of key tile 0 the running maximum, denominator and numerator are one pass from their reset values; after
  any other point one pass from what the point before left; at key tile 3 the output block is the quotient of the
  numerator by the denominator after four passes.
-/
import proofs.«156329_j81458349736252_2_alg».proof.Proof.KI.AttnPieces
import proofs.«156329_j81458349736252_2_alg».proof.Proof.AttnStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Pay

section
variable (V : (c : Dev nD) → (b : Ref sig .tc) → Buf (Elt F) ((c : Thread nD τ).loc b))

theorem outsAt1_congr (c : Dev nD) {n n' : ℕ} (h : n = n') (hn : n < cfg1.N) (hn' : n' < cfg1.N) :
    outsAt1 V c n hn = outsAt1 V c n' hn' := by subst h; rfl

theorem outsAt1_zero (c : Dev nD) (hn : 0 < cfg1.N) :
    outsAt1 V c 0 hn = (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)) := rfl
theorem outsAt1_succ_A (c : Dev nD) (n : ℕ) (hn : n + 1 < cfg1.N) (h0 : (n + 1) % 4 = 0) (h1 : ¬(n + 1) % 4 = 3) :
    outsAt1 V c (n + 1) hn = (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩)) :=
  (dif_pos h0).trans ((dif_neg h1).trans rfl)
theorem outsAt1_succ_B (c : Dev nD) (n : ℕ) (hn : n + 1 < cfg1.N) (h0 : ¬(n + 1) % 4 = 0) (h1 : ¬(n + 1) % 4 = 3) :
    outsAt1 V c (n + 1) hn = (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 V c n (Nat.lt_of_succ_lt hn)).2.1 (outsAt1 V c n (Nat.lt_of_succ_lt hn)).2.2.1 (outsAt1 V c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 V c n (Nat.lt_of_succ_lt hn)).2.1 (outsAt1 V c n (Nat.lt_of_succ_lt hn)).2.2.1 (outsAt1 V c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 V c n (Nat.lt_of_succ_lt hn)).2.1 (outsAt1 V c n (Nat.lt_of_succ_lt hn)).2.2.1 (outsAt1 V c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 V c n (Nat.lt_of_succ_lt hn)).2.1 (outsAt1 V c n (Nat.lt_of_succ_lt hn)).2.2.1 (outsAt1 V c n (Nat.lt_of_succ_lt hn)).2.2.2) :=
  (dif_neg h0).trans ((dif_neg h1).trans rfl)
theorem outsAt1_succ_C (c : Dev nD) (n : ℕ) (hn : n + 1 < cfg1.N) (h0 : ¬(n + 1) % 4 = 0) (h1 : (n + 1) % 4 = 3) :
    outsAt1 V c (n + 1) hn = (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c n (Nat.lt_of_succ_lt hn)).2.1 (outsAt1 V c n (Nat.lt_of_succ_lt hn)).2.2.1 (outsAt1 V c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c n (Nat.lt_of_succ_lt hn)).2.1 (outsAt1 V c n (Nat.lt_of_succ_lt hn)).2.2.1 (outsAt1 V c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c n (Nat.lt_of_succ_lt hn)).2.1 (outsAt1 V c n (Nat.lt_of_succ_lt hn)).2.2.1 (outsAt1 V c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c n (Nat.lt_of_succ_lt hn)).2.1 (outsAt1 V c n (Nat.lt_of_succ_lt hn)).2.2.1 (outsAt1 V c n (Nat.lt_of_succ_lt hn)).2.2.2) :=
  (dif_neg h0).trans ((dif_pos h1).trans rfl)

theorem state_zero (c : Dev nD) (hn : 0 < cfg1.N) :
    (outsAt1 V c 0 hn).2 = stepV (iblk1 V c 0 ⟨0, hn⟩) (iblk1 V c 1 ⟨0, hn⟩) (iblk1 V c 2 ⟨0, hn⟩) initV := by
  rw [outsAt1_zero]; dsimp only
  rw [sout1_A_0_eq, sout1_A_1_eq, sout1_A_2_eq]; rfl
theorem state_succ_A (c : Dev nD) (n : ℕ) (hn : n + 1 < cfg1.N) (h0 : (n + 1) % 4 = 0) :
    (outsAt1 V c (n + 1) hn).2 = stepV (iblk1 V c 0 ⟨n + 1, hn⟩) (iblk1 V c 1 ⟨n + 1, hn⟩) (iblk1 V c 2 ⟨n + 1, hn⟩) initV := by
  rw [outsAt1_succ_A V c n hn h0 (by omega)]; dsimp only
  rw [sout1_A_0_eq, sout1_A_1_eq, sout1_A_2_eq]; rfl
theorem state_succ_BC (c : Dev nD) (n : ℕ) (hn : n + 1 < cfg1.N) (h0 : ¬(n + 1) % 4 = 0) :
    (outsAt1 V c (n + 1) hn).2 = stepV (iblk1 V c 0 ⟨n + 1, hn⟩) (iblk1 V c 1 ⟨n + 1, hn⟩) (iblk1 V c 2 ⟨n + 1, hn⟩) (outsAt1 V c n (Nat.lt_of_succ_lt hn)).2 := by
  by_cases h1 : (n + 1) % 4 = 3
  · rw [outsAt1_succ_C V c n hn h0 h1]; dsimp only
    rw [sout1_C_0_eq, sout1_C_1_eq, sout1_C_2_eq]; rfl
  · rw [outsAt1_succ_B V c n hn h0 h1]; dsimp only
    rw [sout1_B_0_eq, sout1_B_1_eq, sout1_B_2_eq]; rfl
theorem out_succ_C (c : Dev nD) (n : ℕ) (hn : n + 1 < cfg1.N) (h0 : ¬(n + 1) % 4 = 0) (h1 : (n + 1) % 4 = 3) :
    (outsAt1 V c (n + 1) hn).1 = k1_pay3 (outsAt1 V c (n + 1) hn).2.2.2 (outsAt1 V c (n + 1) hn).2.2.1 := by
  rw [outsAt1_succ_C V c n hn h0 h1]; dsimp only
  rw [out1_C_3_eq, sout1_C_1_eq, sout1_C_2_eq]

/-- The running maximum, denominator and numerator after the four passes of the query tile that starts at point `n`. -/
def st4 (c : Dev nD) (n : ℕ) (hn : n + 3 < cfg1.N) :
    Vec F S1024x1 .f32 × Vec F S1024x1 .f32 × Vec F S1024x1024 .f32 :=
  stepV (iblk1 V c 0 ⟨n + 3, hn⟩) (iblk1 V c 1 ⟨n + 3, hn⟩) (iblk1 V c 2 ⟨n + 3, hn⟩)
    (stepV (iblk1 V c 0 ⟨n + 2, by omega⟩) (iblk1 V c 1 ⟨n + 2, by omega⟩) (iblk1 V c 2 ⟨n + 2, by omega⟩)
      (stepV (iblk1 V c 0 ⟨n + 1, by omega⟩) (iblk1 V c 1 ⟨n + 1, by omega⟩) (iblk1 V c 2 ⟨n + 1, by omega⟩)
        (stepV (iblk1 V c 0 ⟨n, by omega⟩) (iblk1 V c 1 ⟨n, by omega⟩) (iblk1 V c 2 ⟨n, by omega⟩) initV)))

/-- At key tile 3 the output block is the quotient after the four passes of its query tile. -/
theorem out_four (c : Dev nD) (n : ℕ) (hn : n + 3 < cfg1.N) (h : n % 4 = 0) :
    (outsAt1 V c (n + 3) hn).1 = k1_pay3 (st4 V c n hn).2.2 (st4 V c n hn).2.1 := by
  have e3 := state_succ_BC V c (n + 2) hn (by omega)
  have e2 := state_succ_BC V c (n + 1) (by omega) (by omega)
  have e1 := state_succ_BC V c n (by omega) (by omega)
  have e0 : (outsAt1 V c n (by omega)).2 = stepV (iblk1 V c 0 ⟨n, by omega⟩) (iblk1 V c 1 ⟨n, by omega⟩) (iblk1 V c 2 ⟨n, by omega⟩) initV := by
    cases n with
    | zero => exact state_zero V c _
    | succ k => exact state_succ_A V c k _ h
  have eo := out_succ_C V c (n + 2) hn (by omega) (by omega)
  show (outsAt1 V c (n + 2 + 1) hn).1 = _
  rw [eo, e3, e2, e1, e0]
  rfl

end

end Cert.KernelIdeal.Hand

end
-- ==== Proof.LibOnlineSoftmax.lean ====
/-
  General lemmas about the online (streaming) softmax over four key blocks, read on the extended
  reals: the running maximum, denominator and numerator after four blocks give the same weighted
  average as the one-shot softmax over all the keys. Also: a fold of max over a finite family is an
  upper bound that is attained, a sum over Fin (4 * n) splits into four blocks of n, the square
  root of 1024 is 32, and the reals that three binary32 patterns denote.
-/
import Mathlib.Data.EReal.Inv
import Mathlib.Analysis.SpecialFunctions.Pow.Real
import Mathlib.Algebra.BigOperators.Fin
import Idealize.ShloMosaic.PureOps.Ideal
import Idealize.ShloMosaic.PureOps.Ideal.Laws

noncomputable section

namespace Cert.LibOnlineSoftmax

open Idealize.ShloMosaic
open scoped BigOperators

/-! ### Coercion of reals into the extended reals -/

/-- The coercion of a finite sum of reals is the sum of the coercions. -/
theorem coe_sum {α : Type*} (t : Finset α) (f : α → ℝ) :
    ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- The coercion of the larger of two reals is the larger of the coercions. -/
theorem coe_max (x y : ℝ) : ((max x y : ℝ) : EReal) = max (x : EReal) (y : EReal) :=
  EReal.coe_strictMono.monotone.map_max

variable {ι : Type} [Fintype ι]

/-! ### The online softmax step -/

/-- One online-softmax step on the state (running maximum m, running denominator l, running
    numerator a) for a block with scores sj, values vj and block maximum b: the new maximum is
    max m b, and the old denominator and numerator are rescaled by exp (m - max m b) before the
    block's terms exp (sj i - max m b) and exp (sj i - max m b) * vj i are added. -/
def step (sj vj : ι → EReal) (b : EReal) (st : EReal × EReal × EReal) : EReal × EReal × EReal :=
  (max st.1 b,
   Ideal.exp (st.1 - max st.1 b) * st.2.1 + ∑ i, Ideal.exp (sj i - max st.1 b),
   Ideal.exp (st.1 - max st.1 b) * st.2.2 + ∑ i, Ideal.exp (sj i - max st.1 b) * vj i)

/-- Four steps, over blocks 0, 1, 2, 3 in this order, from the empty state (-∞, 0, 0). -/
def run4 (s v : Fin 4 → ι → EReal) (bm : Fin 4 → EReal) : EReal × EReal × EReal :=
  step (s 3) (v 3) (bm 3) (step (s 2) (v 2) (bm 2) (step (s 1) (v 1) (bm 1)
    (step (s 0) (v 0) (bm 0) (⊥, 0, 0))))

/-- The same step on real states. -/
def stepR (sj vj : ι → ℝ) (b : ℝ) (st : ℝ × ℝ × ℝ) : ℝ × ℝ × ℝ :=
  (max st.1 b,
   Real.exp (st.1 - max st.1 b) * st.2.1 + ∑ i, Real.exp (sj i - max st.1 b),
   Real.exp (st.1 - max st.1 b) * st.2.2 + ∑ i, Real.exp (sj i - max st.1 b) * vj i)

/-- A real state read as an extended-real state. -/
def coe3 (st : ℝ × ℝ × ℝ) : EReal × EReal × EReal :=
  ((st.1 : EReal), (st.2.1 : EReal), (st.2.2 : EReal))

/-- From the empty state (-∞, 0, 0) the first step gives the block's own maximum, denominator and
    numerator, at every b: max (-∞) b = b, and exp (-∞ - b) = exp (-∞) = 0 multiplies the (zero)
    old sums. -/
theorem step_init (sj vj : ι → EReal) (b : EReal) :
    step sj vj b (⊥, 0, 0) = (b, ∑ i, Ideal.exp (sj i - b), ∑ i, Ideal.exp (sj i - b) * vj i) := by
  simp only [step, bot_le, max_eq_right, EReal.bot_sub, Ideal.exp_bot, zero_mul, zero_add]

/-- On real data the extended-real step is the real step. -/
theorem step_coe (sj vj : ι → ℝ) (b : ℝ) (st : ℝ × ℝ × ℝ) :
    step (fun i => (sj i : EReal)) (fun i => (vj i : EReal)) (b : EReal) (coe3 st)
      = coe3 (stepR sj vj b st) := by
  simp only [step, stepR, coe3, ← coe_max, ← EReal.coe_sub, Ideal.exp_coe, EReal.coe_add,
    EReal.coe_mul, coe_sum]

/-- Changing the reference point of an exponential: exp (m - m') * exp (x - m) = exp (x - m'). -/
theorem exp_rescale (m m' x : ℝ) : Real.exp (m - m') * Real.exp (x - m) = Real.exp (x - m') := by
  rw [← Real.exp_add]; congr 1; ring

/-- The same under a double sum: exp (m - m') * ∑ j ∈ S, ∑ i, exp (s j i - m) * w j i
    = ∑ j ∈ S, ∑ i, exp (s j i - m') * w j i. -/
theorem rescale_sum {κ : Type} (S : Finset κ) (s w : κ → ι → ℝ) (m m' : ℝ) :
    Real.exp (m - m') * ∑ j ∈ S, ∑ i, Real.exp (s j i - m) * w j i
      = ∑ j ∈ S, ∑ i, Real.exp (s j i - m') * w j i := by
  rw [Finset.mul_sum]
  refine Finset.sum_congr rfl fun j _ => ?_
  rw [Finset.mul_sum]
  exact Finset.sum_congr rfl fun i _ => by rw [← mul_assoc, exp_rescale]

/-- The same without weights. -/
theorem rescale_sum_one {κ : Type} (S : Finset κ) (s : κ → ι → ℝ) (m m' : ℝ) :
    Real.exp (m - m') * ∑ j ∈ S, ∑ i, Real.exp (s j i - m)
      = ∑ j ∈ S, ∑ i, Real.exp (s j i - m') := by
  rw [Finset.mul_sum]
  refine Finset.sum_congr rfl fun j _ => ?_
  rw [Finset.mul_sum]
  exact Finset.sum_congr rfl fun i _ => exp_rescale _ _ _

/-- The invariant of the online softmax, one step of it: if the state holds the maximum m, the
    denominator ∑ j ∈ S, ∑ i, exp (s j i - m) and the numerator ∑ j ∈ S, ∑ i, exp (s j i - m) * v j i
    of the blocks S seen so far, then after the step on a new block k with any real b it holds
    those of insert k S at the new maximum max m b. -/
theorem stepR_insert {κ : Type} [DecidableEq κ] (s v : κ → ι → ℝ) (S : Finset κ) (k : κ)
    (hk : k ∉ S) (m b : ℝ) :
    stepR (s k) (v k) b (m, ∑ j ∈ S, ∑ i, Real.exp (s j i - m),
        ∑ j ∈ S, ∑ i, Real.exp (s j i - m) * v j i)
      = (max m b, ∑ j ∈ insert k S, ∑ i, Real.exp (s j i - max m b),
          ∑ j ∈ insert k S, ∑ i, Real.exp (s j i - max m b) * v j i) := by
  rw [Finset.sum_insert hk, Finset.sum_insert hk]
  exact Prod.ext rfl (Prod.ext
    ((congrArg (· + _) (rescale_sum_one S s m (max m b))).trans (add_comm _ _))
    ((congrArg (· + _) (rescale_sum S s v m (max m b))).trans (add_comm _ _)))

/-- Four steps on real data: the state is the maximum of the four b's and the denominator and
    numerator of all four blocks at that maximum. The b's may be any reals. -/
theorem run4_coe (s v : Fin 4 → ι → ℝ) (b : Fin 4 → ℝ) :
    run4 (fun j i => (s j i : EReal)) (fun j i => (v j i : EReal)) (fun j => (b j : EReal))
      = coe3 (max (max (max (b 0) (b 1)) (b 2)) (b 3),
          ∑ j, ∑ i, Real.exp (s j i - max (max (max (b 0) (b 1)) (b 2)) (b 3)),
          ∑ j, ∑ i, Real.exp (s j i - max (max (max (b 0) (b 1)) (b 2)) (b 3)) * v j i) := by
  have h0 : step (fun i => (s 0 i : EReal)) (fun i => (v 0 i : EReal)) (b 0 : EReal) (⊥, 0, 0)
      = coe3 (b 0, ∑ j ∈ ({0} : Finset (Fin 4)), ∑ i, Real.exp (s j i - b 0),
          ∑ j ∈ ({0} : Finset (Fin 4)), ∑ i, Real.exp (s j i - b 0) * v j i) := by
    rw [step_init]
    simp only [coe3, Finset.sum_singleton, coe_sum, EReal.coe_mul, ← EReal.coe_sub, Ideal.exp_coe]
  have hU : insert (3 : Fin 4) (insert (2 : Fin 4) (insert (1 : Fin 4) ({0} : Finset (Fin 4))))
      = Finset.univ := by decide
  unfold run4
  rw [h0, step_coe (s 1) (v 1) (b 1), stepR_insert s v {0} 1 (by decide),
    step_coe (s 2) (v 2) (b 2), stepR_insert s v (insert 1 {0}) 2 (by decide),
    step_coe (s 3) (v 3) (b 3), stepR_insert s v (insert 2 (insert 1 {0})) 3 (by decide), hU]

/-- The softmax-weighted average does not depend on the reference point of the exponentials:
    (∑ e^(s - m) v) / (∑ e^(s - m)) = ∑ (e^(s - M) / ∑ e^(s - M)) v for any reals m, M. -/
theorem ratio_shift {κ : Type} [Fintype κ] (s v : κ → ι → ℝ) (m M : ℝ) :
    (∑ j, ∑ i, Real.exp (s j i - m) * v j i) * (1 / ∑ j, ∑ i, Real.exp (s j i - m))
      = ∑ j, ∑ i, Real.exp (s j i - M) * (1 / ∑ j', ∑ i', Real.exp (s j' i' - M)) * v j i := by
  have hR : ∑ j, ∑ i, Real.exp (s j i - M) * (1 / ∑ j', ∑ i', Real.exp (s j' i' - M)) * v j i
      = (∑ j, ∑ i, Real.exp (s j i - M) * v j i) * (1 / ∑ j', ∑ i', Real.exp (s j' i' - M)) := by
    rw [Finset.sum_mul]
    refine Finset.sum_congr rfl fun j _ => ?_
    rw [Finset.sum_mul]
    exact Finset.sum_congr rfl fun i _ => by ring
  rw [hR, ← rescale_sum Finset.univ s v M m, ← rescale_sum_one Finset.univ s M m]
  have hE : Real.exp (M - m) ≠ 0 := (Real.exp_pos _).ne'
  generalize Real.exp (M - m) = E at hE ⊢
  generalize (∑ j, ∑ i, Real.exp (s j i - M) * v j i) = A
  generalize (∑ j, ∑ i, Real.exp (s j i - M)) = D
  rw [one_div, one_div, mul_inv, mul_assoc, ← mul_assoc A, mul_comm A, mul_assoc, ← mul_assoc E,
    mul_inv_cancel₀ hE, one_mul]

/-- Online softmax over four blocks equals the one-shot softmax, on real data: for real scores
    s j i and values v j i, ANY real block maxima b j and ANY real reference M, the final
    numerator divided by the final denominator is
    ∑ j i, (exp (s j i - M) / ∑ j' i', exp (s j' i' - M)) * v j i. -/
theorem online_softmax4_real [Nonempty ι] (s v : Fin 4 → ι → ℝ) (b : Fin 4 → ℝ) (M : ℝ) :
    Ideal.div
        (run4 (fun j i => (s j i : EReal)) (fun j i => (v j i : EReal)) (fun j => (b j : EReal))).2.2
        (run4 (fun j i => (s j i : EReal)) (fun j i => (v j i : EReal)) (fun j => (b j : EReal))).2.1
      = ∑ j : Fin 4, ∑ i : ι, Ideal.div (Ideal.exp ((s j i : EReal) - (M : EReal)))
          (∑ j' : Fin 4, ∑ i' : ι, Ideal.exp ((s j' i' : EReal) - (M : EReal))) * (v j i : EReal) := by
  have hpos : ∀ m : ℝ, 0 < ∑ j : Fin 4, ∑ i, Real.exp (s j i - m) := fun m =>
    Finset.sum_pos (fun j _ => Finset.sum_pos (fun i _ => Real.exp_pos _) Finset.univ_nonempty)
      Finset.univ_nonempty
  rw [run4_coe]
  simp only [coe3, ← EReal.coe_sub, Ideal.exp_coe, ← coe_sum]
  rw [Ideal.div_coe (hpos _).ne']
  simp only [Ideal.div_coe (hpos M).ne', ← EReal.coe_mul, ← coe_sum]
  exact congrArg _ (ratio_shift s v _ M)

/-- Online softmax over four blocks equals the one-shot softmax. Scores and values are real
    (finite); the block maxima bm j and the reference Mx only need to be real. -/
theorem online_softmax4_of_real [Nonempty ι] (s v : Fin 4 → ι → EReal)
    (hs : ∀ j i, ∃ r : ℝ, s j i = (r : EReal)) (hv : ∀ j i, ∃ r : ℝ, v j i = (r : EReal))
    (bm : Fin 4 → EReal) (hbm : ∀ j, ∃ r : ℝ, bm j = (r : EReal))
    (Mx : EReal) (hMx : ∃ r : ℝ, Mx = (r : EReal)) :
    Ideal.div (run4 s v bm).2.2 (run4 s v bm).2.1
      = ∑ j : Fin 4, ∑ i : ι, Ideal.div (Ideal.exp (s j i - Mx))
          (∑ j' : Fin 4, ∑ i' : ι, Ideal.exp (s j' i' - Mx)) * v j i := by
  choose sr hsr using hs
  choose vr hvr using hv
  choose br hbr using hbm
  obtain ⟨M, rfl⟩ := hMx
  obtain rfl : s = fun j i => (sr j i : EReal) := funext fun j => funext fun i => hsr j i
  obtain rfl : v = fun j i => (vr j i : EReal) := funext fun j => funext fun i => hvr j i
  obtain rfl : bm = fun j => (br j : EReal) := funext hbr
  exact online_softmax4_real sr vr br M

/-- Online softmax over four blocks equals the one-shot softmax (the softmax over all the keys of
    the four blocks, with the global maximum Mx subtracted), for real scores and values, when
    bm j is the maximum of block j and Mx the maximum of all scores. -/
theorem online_softmax4 (s v : Fin 4 → ι → EReal)
    (hs : ∀ j i, ∃ r : ℝ, s j i = (r : EReal)) (hv : ∀ j i, ∃ r : ℝ, v j i = (r : EReal))
    (bm : Fin 4 → EReal) (_hbm_ge : ∀ j i, s j i ≤ bm j) (hbm_at : ∀ j, ∃ i, bm j = s j i)
    (Mx : EReal) (_hM_ge : ∀ j i, s j i ≤ Mx) (hM_at : ∃ j i, Mx = s j i) :
    Ideal.div (run4 s v bm).2.2 (run4 s v bm).2.1
      = ∑ j : Fin 4, ∑ i : ι, Ideal.div (Ideal.exp (s j i - Mx))
          (∑ j' : Fin 4, ∑ i' : ι, Ideal.exp (s j' i' - Mx)) * v j i := by
  obtain ⟨j0, i0, h0⟩ := hM_at
  haveI : Nonempty ι := ⟨i0⟩
  refine online_softmax4_of_real s v hs hv bm (fun j => ?_) Mx ?_
  · obtain ⟨i, hi⟩ := hbm_at j
    obtain ⟨r, hr⟩ := hs j i
    exact ⟨r, hi.trans hr⟩
  · obtain ⟨r, hr⟩ := hs j0 i0
    exact ⟨r, h0.trans hr⟩

/-! ### A fold of max is an upper bound that is attained -/

section FoldMax

variable {κ : Type} {β : Type} [LinearOrder β]

/-- Every member of the family is at most the fold of max over it, from any initial value. -/
theorem le_fold_max_of_mem (t : Finset κ) (f : κ → β) (b : β) {k : κ} (hk : k ∈ t) :
    f k ≤ t.fold max b f :=
  (Finset.le_fold_max (f k)).2 (Or.inr ⟨k, hk, le_rfl⟩)

/-- The fold of max is its initial value or the value at some member. -/
theorem fold_max_eq_init_or_mem (t : Finset κ) (f : κ → β) (b : β) :
    t.fold max b f = b ∨ ∃ k ∈ t, t.fold max b f = f k := by
  classical
  induction t using Finset.induction_on with
  | empty => exact Or.inl Finset.fold_empty
  | insert a t ha ih =>
    rw [Finset.fold_insert ha]
    rcases le_total (f a) (t.fold max b f) with h | h
    · rw [max_eq_right h]
      rcases ih with h0 | ⟨k, hk, hk'⟩
      · exact Or.inl h0
      · exact Or.inr ⟨k, Finset.mem_insert_of_mem hk, hk'⟩
    · rw [max_eq_left h]
      exact Or.inr ⟨a, Finset.mem_insert_self _ _, rfl⟩

/-- If the initial value is below some member, the fold of max is attained at a member. -/
theorem fold_max_attained (t : Finset κ) (f : κ → β) (b : β) (hb : ∃ k ∈ t, b ≤ f k) :
    ∃ k ∈ t, t.fold max b f = f k := by
  rcases fold_max_eq_init_or_mem t f b with h | h
  · obtain ⟨k, hk, hbk⟩ := hb
    exact ⟨k, hk, le_antisymm (by rw [h]; exact hbk) (le_fold_max_of_mem t f b hk)⟩
  · exact h

end FoldMax

/-- Over a nonempty finite family of extended reals, the fold of max from -∞ is at least every
    member and is the value at some member. -/
theorem fold_max_bot_spec {κ : Type} [Fintype κ] [Nonempty κ] (f : κ → EReal) :
    (∀ k, f k ≤ Finset.univ.fold max ⊥ f) ∧ ∃ k, Finset.univ.fold max ⊥ f = f k := by
  refine ⟨fun k => le_fold_max_of_mem _ f ⊥ (Finset.mem_univ k), ?_⟩
  obtain ⟨k, _, hk⟩ := fold_max_attained Finset.univ f ⊥
    ⟨Classical.arbitrary κ, Finset.mem_univ _, bot_le⟩
  exact ⟨k, hk⟩

/-- A value that is at least every member of a family and is attained at one is the fold of max
    from -∞ over the family. -/
theorem eq_fold_max_bot {κ : Type} [Fintype κ] (f : κ → EReal) (M : EReal) (hge : ∀ k, f k ≤ M)
    (hat : ∃ k, M = f k) : Finset.univ.fold max ⊥ f = M := by
  obtain ⟨k, hk⟩ := hat
  refine le_antisymm ((Finset.fold_max_le M).2 ⟨bot_le, fun x _ => hge x⟩) ?_
  rw [hk]
  exact le_fold_max_of_mem _ f ⊥ (Finset.mem_univ k)

/-- On the extended reals the float maximum is max, so a fold of it is the fold of max. -/
theorem fold_maximumf_eq {φ : FTy} {κ : Type} (t : Finset κ) (f : κ → Ideal φ) (b : Ideal φ) :
    t.fold (FloatOps.maximumf (F := Ideal) (φ := φ)) b f = t.fold max b f := rfl

/-! ### Four blocks of n -/

/-- The position of element i of block j among 4 * n elements laid out block after block. -/
theorem blockIdx_lt {n : ℕ} (j : Fin 4) (i : Fin n) : j.val * n + i.val < 4 * n := by
  have hj := j.isLt
  have hi := i.isLt
  calc j.val * n + i.val < j.val * n + n := by omega
    _ = (j.val + 1) * n := by ring
    _ ≤ 4 * n := Nat.mul_le_mul_right n (by omega)

/-- Element i of block j, as an index into 4 * n elements. -/
def blockIdx {n : ℕ} (j : Fin 4) (i : Fin n) : Fin (4 * n) := ⟨j.val * n + i.val, blockIdx_lt j i⟩

/-- It is Mathlib's pairing of Fin 4 × Fin n with Fin (4 * n). -/
theorem blockIdx_eq {n : ℕ} (j : Fin 4) (i : Fin n) : blockIdx j i = finProdFinEquiv (j, i) :=
  Fin.ext (by simp [blockIdx, finProdFinEquiv, Nat.add_comm, Nat.mul_comm])

/-- Every index below 4 * n is element i of block j for some j and i. -/
theorem exists_blockIdx {n : ℕ} (k : Fin (4 * n)) : ∃ j i, k = blockIdx j i := by
  obtain ⟨⟨j, i⟩, h⟩ := finProdFinEquiv.surjective k
  exact ⟨j, i, by rw [blockIdx_eq, h]⟩

/-- A sum over 4 * n elements is the sum over the four blocks of the sums over each block. -/
theorem sum_fin_mul {α : Type*} [AddCommMonoid α] {n : ℕ} (f : Fin (4 * n) → α) :
    ∑ k, f k = ∑ j : Fin 4, ∑ i : Fin n, f ⟨j.val * n + i.val, blockIdx_lt j i⟩ := by
  rw [← Equiv.sum_comp finProdFinEquiv f, Fintype.sum_prod_type]
  exact Finset.sum_congr rfl fun j _ => Finset.sum_congr rfl fun i _ =>
    congrArg f (blockIdx_eq j i).symm

/-- An upper bound of 4 * n extended reals that is attained is an upper bound, attained, of the
    same numbers indexed by block and position, and conversely. -/
theorem max_spec_blocks {n : ℕ} (f : Fin (4 * n) → EReal) (M : EReal) :
    ((∀ k, f k ≤ M) ∧ ∃ k, M = f k)
      ↔ ((∀ j i, f (blockIdx j i) ≤ M) ∧ ∃ j i, M = f (blockIdx j i)) := by
  constructor
  · rintro ⟨hge, k, hk⟩
    obtain ⟨j, i, rfl⟩ := exists_blockIdx k
    exact ⟨fun j i => hge _, j, i, hk⟩
  · rintro ⟨hge, j, i, hk⟩
    refine ⟨fun k => ?_, blockIdx j i, hk⟩
    obtain ⟨j', i', rfl⟩ := exists_blockIdx k
    exact hge j' i'

/-- The fold of max from -∞ over 4 * n extended reals is the fold over the four blocks of the
    folds over each block. -/
theorem fold_max_fin_mul {n : ℕ} (f : Fin (4 * n) → EReal) :
    Finset.univ.fold max ⊥ f
      = Finset.univ.fold max ⊥ fun j : Fin 4 => Finset.univ.fold max ⊥ fun i : Fin n =>
          f (blockIdx j i) := by
  refine le_antisymm ((Finset.fold_max_le _).2 ⟨bot_le, fun k _ => ?_⟩)
    ((Finset.fold_max_le _).2 ⟨bot_le, fun j _ => (Finset.fold_max_le _).2 ⟨bot_le, fun i _ =>
      le_fold_max_of_mem _ f ⊥ (Finset.mem_univ _)⟩⟩)
  obtain ⟨j, i, rfl⟩ := exists_blockIdx k
  exact (le_fold_max_of_mem Finset.univ (fun i : Fin n => f (blockIdx j i)) ⊥
      (Finset.mem_univ i)).trans
    (le_fold_max_of_mem Finset.univ
      (fun j : Fin 4 => Finset.univ.fold max ⊥ fun i : Fin n => f (blockIdx j i)) ⊥
      (Finset.mem_univ j))

/-! ### The scale 1 / √1024 -/

/-- 1024 to the power one half is 32. -/
theorem rpow_half : Real.rpow 1024 (1 / 2 : ℝ) = 32 := by
  show (1024 : ℝ) ^ (1 / 2 : ℝ) = 32
  have h : (1024 : ℝ) = (32 : ℝ) ^ (2 : ℝ) := by rw [Real.rpow_two]; norm_num
  rw [h, ← Real.rpow_mul (by norm_num : (0 : ℝ) ≤ 32)]
  norm_num

/-- On the extended reals, 1024 to the power one half is 32. -/
theorem pow_half : Ideal.pow ((1024 : ℝ) : EReal) ((1 / 2 : ℝ) : EReal) = ((32 : ℝ) : EReal) := by
  rw [Ideal.pow_coe_coe, rpow_half]

/-- Dividing a real by 32 is multiplying it by 1/32. -/
theorem div_32 (x : ℝ) :
    Ideal.div (x : EReal) ((32 : ℝ) : EReal) = (x : EReal) * ((1 / 32 : ℝ) : EReal) :=
  Ideal.div_coe (by norm_num) _

/-- The binary32 pattern 0x3F000000 denotes one half. -/
theorem ofBits_half : Ideal.ofBits .f32 0x3F000000#32 = ((1 / 2 : ℝ) : EReal) := by
  simp [Ideal.ofBits, Ideal.ieee, -EReal.coe_mul]; norm_num

/-- The binary32 pattern 0x44800000 denotes 1024. -/
theorem ofBits_1024 : Ideal.ofBits .f32 0x44800000#32 = ((1024 : ℝ) : EReal) := by
  simp [Ideal.ofBits, Ideal.ieee, -EReal.coe_mul]; norm_num

/-- The binary32 pattern 0x3D000000 denotes 1/32. -/
theorem ofBits_inv32 : Ideal.ofBits .f32 0x3D000000#32 = ((1 / 32 : ℝ) : EReal) := by
  simp [Ideal.ofBits, Ideal.ieee, -EReal.coe_mul]; norm_num

/-- The binary32 pattern 0xFF800000 denotes -∞. -/
theorem ofBits_neg_inf : Ideal.ofBits .f32 0xFF800000#32 = ⊥ := by
  simp [Ideal.ofBits, Ideal.ieee]

end Cert.LibOnlineSoftmax

end
-- ==== Proof.AttnPay.lean ====
/-
  The attention kernel's pure values read at one index, on the extended reals: the scaled scores
  of a query row against a block of 512 keys, the running row maximum, the two rescaling
  exponentials, the running denominator, the running numerator and the final quotient, each as the
  elementary expression in the loaded values at literal coordinates.
-/
import proofs.«156329_j81458349736252_2_alg».proof.Proof.Gen.KernelIdeal.Skeleton
import proofs.«156329_j81458349736252_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ### Column layouts: a vector as a one-column matrix, and a column repeated along the rows -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The two matrix products at an index -/

/-! The operand indices of the two products, axis by axis: on an operand's free axis the output's
    coordinate, on its contracted axis the contraction position. -/

theorem lhs_qk_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem lhs_qk_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_qk_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_qk_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

theorem lhs_pv_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs_pv_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_pv_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_pv_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product of a [1024, 1024] matrix with a [1024, 512] matrix into a zero accumulator, at
    (r, k): the sum over the 1024 contracted positions. -/
theorem matmul_qk_apply (A : FVec Ideal S1024x1024 .bf16) (B : FVec Ideal S1024x512 .bf16)
    (r : Fin 1024) (k : Fin 512) :
    matmul dot_S1024x1024_S1024x512_S1024x512_1_0_0_1_n_n none A B (constant (F := Ideal) S1024x512 .f32 0x00000000#32) (ix2 r k)
      = ∑ d : Fin 1024, A (ix2 r d) * B (ix2 d k) := by
  refine (Ideal.matmul_constant_zero_apply dot_S1024x1024_S1024x512_S1024x512_1_0_0_1_n_n none A B (ix2 r k)).trans ?_
  rw [← Equiv.sum_comp (contrEquiv1 dot_S1024x1024_S1024x512_S1024x512_1_0_0_1_n_n 1024 rfl rfl).symm]
  refine Finset.sum_congr rfl fun d _ => ?_
  have hq := contrEquiv1_symm_val dot_S1024x1024_S1024x512_S1024x512_1_0_0_1_n_n 1024 rfl rfl d
  have el : dot_S1024x1024_S1024x512_S1024x512_1_0_0_1_n_n.lhsIdx (ix2 r k) ((contrEquiv1 dot_S1024x1024_S1024x512_S1024x512_1_0_0_1_n_n 1024 rfl rfl).symm d) = ix2 r d :=
    funext fun a => Fin.ext (by
      match a with
      | ⟨0, _⟩ => exact lhs_qk_0 _ _
      | ⟨1, _⟩ => exact (lhs_qk_1 _ _).trans hq)
  have er : dot_S1024x1024_S1024x512_S1024x512_1_0_0_1_n_n.rhsIdx (ix2 r k) ((contrEquiv1 dot_S1024x1024_S1024x512_S1024x512_1_0_0_1_n_n 1024 rfl rfl).symm d) = ix2 d k :=
    funext fun a => Fin.ext (by
      match a with
      | ⟨0, _⟩ => exact (rhs_qk_0 _ _).trans hq
      | ⟨1, _⟩ => exact rhs_qk_1 _ _)
  rw [el, er]

/-- The product of a [1024, 512] matrix with a [512, 1024] matrix into a zero accumulator, at
    (r, h): the sum over the 512 contracted positions. -/
theorem matmul_pv_apply (A : FVec Ideal S1024x512 .bf16) (B : FVec Ideal S512x1024 .bf16)
    (r : Fin 1024) (h : Fin 1024) :
    matmul dot_S1024x512_S512x1024_S1024x1024_1_0_0_1_n_n none A B (constant (F := Ideal) S1024x1024 .f32 0x00000000#32) (ix2 r h)
      = ∑ k : Fin 512, A (ix2 r k) * B (ix2 k h) := by
  refine (Ideal.matmul_constant_zero_apply dot_S1024x512_S512x1024_S1024x1024_1_0_0_1_n_n none A B (ix2 r h)).trans ?_
  rw [← Equiv.sum_comp (contrEquiv1 dot_S1024x512_S512x1024_S1024x1024_1_0_0_1_n_n 512 rfl rfl).symm]
  refine Finset.sum_congr rfl fun k _ => ?_
  have hq := contrEquiv1_symm_val dot_S1024x512_S512x1024_S1024x1024_1_0_0_1_n_n 512 rfl rfl k
  have el : dot_S1024x512_S512x1024_S1024x1024_1_0_0_1_n_n.lhsIdx (ix2 r h) ((contrEquiv1 dot_S1024x512_S512x1024_S1024x1024_1_0_0_1_n_n 512 rfl rfl).symm k) = ix2 r k :=
    funext fun a => Fin.ext (by
      match a with
      | ⟨0, _⟩ => exact lhs_pv_0 _ _
      | ⟨1, _⟩ => exact (lhs_pv_1 _ _).trans hq)
  have er : dot_S1024x512_S512x1024_S1024x1024_1_0_0_1_n_n.rhsIdx (ix2 r h) ((contrEquiv1 dot_S1024x512_S512x1024_S1024x1024_1_0_0_1_n_n 512 rfl rfl).symm k) = ix2 k h :=
    funext fun a => Fin.ext (by
      match a with
      | ⟨0, _⟩ => exact (rhs_pv_0 _ _).trans hq
      | ⟨1, _⟩ => exact rhs_pv_1 _ _)
  rw [el, er]

/-! ### The two row reductions at an index -/

/-- The maximum along the 512 columns of a [1024, 512] matrix, at row r: the fold of max from the
    accumulator's value over the row. -/
theorem rowmax_apply (src : FVec Ideal S1024x512 .f32) (hφ : FKind.Formats .f32)
    (hacc : (0xFF800000#32 : BitVec 32) = FKind.maximumf.neutral .f32 hφ) (r : Fin 1024) :
    multiReduction .maximumf [1] S1024 src 0xFF800000#32 reduces_S1024x512_S1024 hφ hacc (ix1 r)
      = Finset.univ.fold max (Ideal.ofBits .f32 0xFF800000#32) fun k : Fin 512 => src (ix2 r k) := by
  refine (Ideal.multiReduction_maximumf_single src 0xFF800000#32 reduces_S1024x512_S1024 hφ hacc
    (ix1 r)).trans ?_
  show (Finset.univ : Finset (Fin 512)).fold max (Ideal.ofBits .f32 0xFF800000#32)
      (fun k : Fin 512 => src (reduces_S1024x512_S1024.lift (ix1 r) k)) = _
  refine congrArg (fun f => (Finset.univ : Finset (Fin 512)).fold max
    (Ideal.ofBits .f32 0xFF800000#32) f) (funext fun k => congrArg src (funext fun a => Fin.ext ?_))
  match a with
  | ⟨0, _⟩ => rfl
  | ⟨1, _⟩ => rfl

/-- The sum along the 512 columns of a [1024, 512] matrix, at row r. -/
theorem rowsum_apply (src : FVec Ideal S1024x512 .f32) (hφ : FKind.Formats .f32)
    (hacc : (0x00000000#32 : BitVec 32) = FKind.add.neutral .f32 hφ) (r : Fin 1024) :
    multiReduction .add [1] S1024 src 0x00000000#32 reduces_S1024x512_S1024 hφ hacc (ix1 r)
      = ∑ k : Fin 512, src (ix2 r k) := by
  refine (Ideal.multiReduction_add_single src 0x00000000#32 reduces_S1024x512_S1024 hφ hacc
    (ix1 r)).trans ?_
  show ∑ k : Fin 512, src (reduces_S1024x512_S1024.lift (ix1 r) k) = _
  refine Finset.sum_congr rfl fun k _ => congrArg src (funext fun a => Fin.ext ?_)
  match a with
  | ⟨0, _⟩ => rfl
  | ⟨1, _⟩ => rfl

/-! ### The payloads at an index -/

/-- The scaled scores of query row r against key k of the block: the dot product over the 1024
    features, times the scale. -/
theorem pay8_apply (v3 : Vec Ideal S1x1024x1024 .bf16) (v5 : Vec Ideal S1x512x1024 .bf16)
    (r : Fin 1024) (k : Fin 512) :
    k1_pay8 (F := Ideal) v3 v5 (ix2 r k)
      = (∑ d : Fin 1024, v3 (ix3 (0 : Fin 1) r d) * v5 (ix3 (0 : Fin 1) k d))
          * Ideal.ofBits .f32 0x3D000000#32 := by
  unfold k1_pay8
  refine (congrArg (· * Ideal.ofBits .f32 0x3D000000#32) (matmul_qk_apply _ _ r k)).trans ?_
  refine congrArg (· * Ideal.ofBits .f32 0x3D000000#32) (Finset.sum_congr rfl fun d _ => ?_)
  rw [shapeCast_1ab_ab_apply, transpose_ix2_apply, shapeCast_1ab_ab_apply]

/-- The new running maximum of row r: the larger of the old one and the block's row maximum. -/
theorem pay9_apply (v3 : Vec Ideal S1x1024x1024 .bf16) (v5 : Vec Ideal S1x512x1024 .bf16)
    (v13 : Vec Ideal S1024x1 .f32) (r : Fin 1024) :
    k1_pay9 (F := Ideal) v3 v5 v13 (ix2 r (0 : Fin 1))
      = max (v13 (ix2 r (0 : Fin 1))) (Finset.univ.fold max (Ideal.ofBits .f32 0xFF800000#32)
          fun k : Fin 512 => k1_pay8 (F := Ideal) v3 v5 (ix2 r k)) := by
  unfold k1_pay9
  refine congrArg (max (v13 (ix2 r (0 : Fin 1)))) ?_
  refine (shapeCast_a_a1_apply _ _ r (0 : Fin 1)).trans ?_
  exact rowmax_apply _ _ _ r

/-- The factor that rescales the old sums of row r: exp (old maximum - new maximum). -/
theorem pay10_apply (v3 : Vec Ideal S1x1024x1024 .bf16) (v5 : Vec Ideal S1x512x1024 .bf16)
    (v13 v17 : Vec Ideal S1024x1 .f32) (r : Fin 1024) :
    k1_pay10 (F := Ideal) v3 v5 v13 v17 (ix2 r (0 : Fin 1))
      = Ideal.exp (v17 (ix2 r (0 : Fin 1)) - k1_pay9 (F := Ideal) v3 v5 v13 (ix2 r (0 : Fin 1))) := by
  unfold k1_pay10
  rfl

/-- The block's exponentials: exp (score - new maximum of the row). -/
theorem pay11_apply (v3 : Vec Ideal S1x1024x1024 .bf16) (v5 : Vec Ideal S1x512x1024 .bf16)
    (v13 : Vec Ideal S1024x1 .f32) (r : Fin 1024) (k : Fin 512) :
    k1_pay11 (F := Ideal) v3 v5 v13 (ix2 r k)
      = Ideal.exp (k1_pay8 (F := Ideal) v3 v5 (ix2 r k)
          - k1_pay9 (F := Ideal) v3 v5 v13 (ix2 r (0 : Fin 1))) := by
  unfold k1_pay11
  refine congrArg (fun x => Ideal.exp (k1_pay8 (F := Ideal) v3 v5 (ix2 r k) - x)) ?_
  exact broadcastTo_a1_ab_apply _ _ r k

/-- The new running denominator of row r: the old one rescaled, plus the block's exponentials. -/
theorem pay12_apply (v3 : Vec Ideal S1x1024x1024 .bf16) (v5 : Vec Ideal S1x512x1024 .bf16)
    (v13 v17 v23 : Vec Ideal S1024x1 .f32) (r : Fin 1024) :
    k1_pay12 (F := Ideal) v3 v5 v13 v17 v23 (ix2 r (0 : Fin 1))
      = k1_pay10 (F := Ideal) v3 v5 v13 v17 (ix2 r (0 : Fin 1)) * v23 (ix2 r (0 : Fin 1))
          + ∑ k : Fin 512, k1_pay11 (F := Ideal) v3 v5 v13 (ix2 r k) := by
  unfold k1_pay12
  rw [shapeCast_self]
  refine congrArg (k1_pay10 (F := Ideal) v3 v5 v13 v17 (ix2 r (0 : Fin 1)) * v23 (ix2 r (0 : Fin 1)) + ·) ?_
  refine (shapeCast_a_a1_apply _ _ r (0 : Fin 1)).trans ?_
  exact rowsum_apply _ _ _ r

/-- The block of values as a matrix: the leading unit axis dropped. -/
theorem pay7_apply (v7 : Vec Ideal S1x512x1024 .bf16) (k : Fin 512) (h : Fin 1024) :
    k1_pay7 (F := Ideal) v7 (ix2 k h) = v7 (ix3 (0 : Fin 1) k h) := by
  unfold k1_pay7
  exact shapeCast_1ab_ab_apply _ _ k h

/-- The new running numerator at (r, h): the old one rescaled, plus the block's exponentials
    times the block's values. -/
theorem pay1_apply (v8 : FVec Ideal S512x1024 .bf16) (v19 : FVec Ideal S1024x1 .f32)
    (v22 : FVec Ideal S1024x512 .f32) (v31 : Vec Ideal S1024x1024 .f32) (r h : Fin 1024) :
    k1_pay1 (F := Ideal) v8 v19 v22 v31 (ix2 r h)
      = v19 (ix2 r (0 : Fin 1)) * v31 (ix2 r h) + ∑ k : Fin 512, v22 (ix2 r k) * v8 (ix2 k h) := by
  unfold k1_pay1
  rw [shapeCast_self]
  refine (congrArg (· + _) (congrArg (· * v31 (ix2 r h)) (broadcastTo_a1_ab_apply v19 _ r h))).trans ?_
  exact congrArg (v19 (ix2 r (0 : Fin 1)) * v31 (ix2 r h) + ·) (matmul_pv_apply _ v8 r h)

/-- The stored running maximum is the new one unchanged. -/
theorem pay2_apply (v16 : FVec Ideal S1024x1 .f32) : k1_pay2 (F := Ideal) v16 = v16 := by
  unfold k1_pay2
  exact shapeCast_self _ _

/-- The output at (r, h): the numerator divided by the denominator of row r. -/
theorem pay3_apply (v46 : Vec Ideal S1024x1024 .f32) (v47 : Vec Ideal S1024x1 .f32) (r h : Fin 1024) :
    k1_pay3 (F := Ideal) v46 v47 (ix3 (0 : Fin 1) r h)
      = Ideal.div (v46 (ix2 r h)) (v47 (ix2 r (0 : Fin 1))) := by
  unfold k1_pay3
  refine (shapeCast_ab_1ab_apply _ _ (0 : Fin 1) r h).trans ?_
  exact congrArg (Ideal.div (v46 (ix2 r h))) (broadcastTo_a1_ab_apply v47 _ r h)

/-- The initial running maximum is -∞ everywhere. -/
theorem pay4_apply (i : S1024x1.Idx) : k1_pay4 (F := Ideal) i = ⊥ := by
  unfold k1_pay4
  rw [shapeCast_self]
  exact Cert.LibOnlineSoftmax.ofBits_neg_inf

/-- The initial running denominator is 0 everywhere. -/
theorem pay5_apply (i : S1024x1.Idx) : k1_pay5 (F := Ideal) i = 0 := by
  unfold k1_pay5
  rw [shapeCast_self]
  exact Ideal.ofBits_zero_f32

/-- The initial running numerator is 0 everywhere. -/
theorem pay6_apply (i : S1024x1024.Idx) : k1_pay6 (F := Ideal) i = 0 := by
  unfold k1_pay6
  rw [shapeCast_self]
  exact Ideal.ofBits_zero_f32

end Cert.KernelIdeal.Pay

end
-- ==== Proof.FlashRow.lean ====
/-
  Four passes of the attention body over the key tiles, followed by the final quotient, read at
  one output element: the softmax-weighted average of the values over all 4 * 512 keys, the scores
  being the scaled dot products of the query row with the keys.
-/
import proofs.«156329_j81458349736252_2_alg».proof.Proof.AttnStep
import proofs.«156329_j81458349736252_2_alg».proof.Proof.AttnPay
import proofs.«156329_j81458349736252_2_alg».proof.Proof.LibOnlineSoftmax

noncomputable section

namespace Cert.KernelIdeal.Pay

open Cert.KernelIdeal Cert.KernelIdeal.Gen Idealize.ShloMosaic Idealize.ShloMosaic.ValueIdx
open Cert.LibOnlineSoftmax
open scoped BigOperators

/-- The state after the four passes over key tiles 0, 1, 2, 3, from the reset state. -/
def st4 (Q : Vec Ideal S1x1024x1024 .bf16) (Ks Vs : Fin 4 → Vec Ideal S1x512x1024 .bf16) :
    Vec Ideal S1024x1 .f32 × Vec Ideal S1024x1 .f32 × Vec Ideal S1024x1024 .f32 :=
  stepV Q (Ks 3) (Vs 3) (stepV Q (Ks 2) (Vs 2) (stepV Q (Ks 1) (Vs 1) (stepV Q (Ks 0) (Vs 0) initV)))

/-- The scaled score of query row r against key k of a tile: the dot product over the 1024
    features, times 1/32. -/
def sc (Q : Vec Ideal S1x1024x1024 .bf16) (K : Vec Ideal S1x512x1024 .bf16) (r : Fin 1024)
    (k : Fin 512) : EReal :=
  (∑ d : Fin 1024, Q (ix3 (0 : Fin 1) r d) * K (ix3 (0 : Fin 1) k d)) * ((1 / 32 : ℝ) : EReal)

/-- A state read at output element (r, h): the running maximum and denominator of row r, and the
    running numerator at (r, h). -/
def row (st : Vec Ideal S1024x1 .f32 × Vec Ideal S1024x1 .f32 × Vec Ideal S1024x1024 .f32)
    (r h : Fin 1024) : EReal × EReal × EReal :=
  (st.1 (ix2 r (0 : Fin 1)), st.2.1 (ix2 r (0 : Fin 1)), st.2.2 (ix2 r h))

/-- The body's scaled scores are the scores sc. -/
theorem pay8_eq_sc (Q : Vec Ideal S1x1024x1024 .bf16) (K : Vec Ideal S1x512x1024 .bf16)
    (r : Fin 1024) (k : Fin 512) : k1_pay8 (F := Ideal) Q K (ix2 r k) = sc Q K r k := by
  rw [pay8_apply, ofBits_inv32]
  rfl

/-- A score is real when the query and the keys are. -/
theorem sc_real (Q : Vec Ideal S1x1024x1024 .bf16) (K : Vec Ideal S1x512x1024 .bf16)
    (hQ : ∀ i, ∃ x : ℝ, Q i = (x : EReal)) (hK : ∀ i, ∃ x : ℝ, K i = (x : EReal))
    (r : Fin 1024) (k : Fin 512) : ∃ x : ℝ, sc Q K r k = (x : EReal) := by
  choose q hq using hQ
  choose kk hk using hK
  refine ⟨(∑ d : Fin 1024, q (ix3 (0 : Fin 1) r d) * kk (ix3 (0 : Fin 1) k d)) * (1 / 32), ?_⟩
  unfold sc
  simp only [hq, hk]
  rw [EReal.coe_mul, coe_sum]
  simp only [EReal.coe_mul]

/-- The maximum of a nonempty finite family of reals is real. -/
theorem fold_max_real {κ : Type} [Fintype κ] [Nonempty κ] (f : κ → EReal)
    (hf : ∀ k, ∃ x : ℝ, f k = (x : EReal)) : ∃ x : ℝ, Finset.univ.fold max ⊥ f = (x : EReal) := by
  obtain ⟨k, hk⟩ := (fold_max_bot_spec f).2
  obtain ⟨x, hx⟩ := hf k
  exact ⟨x, hk.trans hx⟩

/-- One pass of the body, read at output element (r, h), is one online-softmax step on the
    tile's scores of row r and its values in column h, with the tile's row maximum. -/
theorem row_stepV (Q : Vec Ideal S1x1024x1024 .bf16) (K Vb : Vec Ideal S1x512x1024 .bf16)
    (st : Vec Ideal S1024x1 .f32 × Vec Ideal S1024x1 .f32 × Vec Ideal S1024x1024 .f32)
    (r h : Fin 1024) :
    row (stepV Q K Vb st) r h
      = step (sc Q K r) (fun k : Fin 512 => Vb (ix3 (0 : Fin 1) k h))
          (Finset.univ.fold max ⊥ (sc Q K r)) (row st r h) := by
  have hf : (fun k : Fin 512 => k1_pay8 (F := Ideal) Q K (ix2 r k)) = sc Q K r :=
    funext fun k => pay8_eq_sc Q K r k
  have h9 : k1_pay9 (F := Ideal) Q K st.1 (ix2 r (0 : Fin 1))
      = max (st.1 (ix2 r (0 : Fin 1))) (Finset.univ.fold max ⊥ (sc Q K r)) := by
    rw [pay9_apply, ofBits_neg_inf, hf]
  have h10 : k1_pay10 (F := Ideal) Q K st.1 st.1 (ix2 r (0 : Fin 1))
      = Ideal.exp (st.1 (ix2 r (0 : Fin 1))
          - max (st.1 (ix2 r (0 : Fin 1))) (Finset.univ.fold max ⊥ (sc Q K r))) := by
    rw [pay10_apply, h9]
  have h11 : ∀ k : Fin 512, k1_pay11 (F := Ideal) Q K st.1 (ix2 r k)
      = Ideal.exp (sc Q K r k
          - max (st.1 (ix2 r (0 : Fin 1))) (Finset.univ.fold max ⊥ (sc Q K r))) := fun k => by
    rw [pay11_apply, h9, pay8_eq_sc]
  refine Prod.ext ?_ (Prod.ext ?_ ?_)
  · exact (congrFun (pay2_apply (k1_pay9 (F := Ideal) Q K st.1)) (ix2 r (0 : Fin 1))).trans h9
  · exact (pay12_apply Q K st.1 st.1 st.2.1 r).trans
      (congrArg₂ (· + ·) (congrArg (· * st.2.1 (ix2 r (0 : Fin 1))) h10)
        (Finset.sum_congr rfl fun k _ => h11 k))
  · exact (pay1_apply (k1_pay7 (F := Ideal) Vb) (k1_pay10 (F := Ideal) Q K st.1 st.1)
        (k1_pay11 (F := Ideal) Q K st.1) st.2.2 r h).trans
      (congrArg₂ (· + ·) (congrArg (· * st.2.2 (ix2 r h)) h10)
        (Finset.sum_congr rfl fun k _ => congrArg₂ (· * ·) (h11 k) (pay7_apply Vb k h)))

/-- The reset state, read at any output element, is (-∞, 0, 0). -/
theorem row_initV (r h : Fin 1024) : row (initV (F := Ideal)) r h = (⊥, 0, 0) :=
  Prod.ext (pay4_apply (ix2 r (0 : Fin 1)))
    (Prod.ext (pay5_apply (ix2 r (0 : Fin 1))) (pay6_apply (ix2 r h)))

/-- Four passes, read at output element (r, h), are the four online-softmax steps. -/
theorem row_st4 (Q : Vec Ideal S1x1024x1024 .bf16) (Ks Vs : Fin 4 → Vec Ideal S1x512x1024 .bf16)
    (r h : Fin 1024) :
    row (st4 Q Ks Vs) r h
      = run4 (fun j => sc Q (Ks j) r) (fun j (k : Fin 512) => Vs j (ix3 (0 : Fin 1) k h))
          (fun j => Finset.univ.fold max ⊥ (sc Q (Ks j) r)) := by
  unfold st4 run4
  rw [row_stepV, row_stepV, row_stepV, row_stepV, row_initV]

/-- Flash attention at one output element: after the four passes the numerator at (r, h) divided by
    the denominator of row r is the softmax over all 4 * 512 scores of row r (any real reference
    point Mx subtracted in the exponents) applied to the values in column h. The query, keys and
    values are real. -/
theorem flash_row (Q : Vec Ideal S1x1024x1024 .bf16) (Ks Vs : Fin 4 → Vec Ideal S1x512x1024 .bf16)
    (hQ : ∀ i, ∃ x : ℝ, Q i = (x : EReal)) (hK : ∀ j i, ∃ x : ℝ, Ks j i = (x : EReal))
    (hV : ∀ j i, ∃ x : ℝ, Vs j i = (x : EReal)) (r h : Fin 1024)
    (Mx : EReal) (hMx : ∃ x : ℝ, Mx = (x : EReal)) :
    k1_pay3 (F := Ideal) (st4 Q Ks Vs).2.2 (st4 Q Ks Vs).2.1 (ix3 (0 : Fin 1) r h)
      = ∑ j : Fin 4, ∑ k : Fin 512,
          Ideal.div (Ideal.exp (sc Q (Ks j) r k - Mx))
            (∑ j' : Fin 4, ∑ k' : Fin 512, Ideal.exp (sc Q (Ks j') r k' - Mx))
          * Vs j (ix3 (0 : Fin 1) k h) := by
  haveI : Nonempty (Fin 512) := ⟨⟨0, by omega⟩⟩
  refine (pay3_apply (st4 Q Ks Vs).2.2 (st4 Q Ks Vs).2.1 r h).trans ?_
  have hrow := row_st4 Q Ks Vs r h
  generalize st4 Q Ks Vs = X at hrow ⊢
  have e1 : X.2.2 (ix2 r h) = _ := congrArg (fun t : EReal × EReal × EReal => t.2.2) hrow
  have e2 : X.2.1 (ix2 r (0 : Fin 1)) = _ :=
    congrArg (fun t : EReal × EReal × EReal => t.2.1) hrow
  rw [e1, e2]
  exact online_softmax4_of_real (fun j => sc Q (Ks j) r)
    (fun j (k : Fin 512) => Vs j (ix3 (0 : Fin 1) k h))
    (fun j k => sc_real Q (Ks j) hQ (hK j) r k) (fun j k => hV j _)
    (fun j => Finset.univ.fold max ⊥ (sc Q (Ks j) r))
    (fun j => fold_max_real _ fun k => sc_real Q (Ks j) hQ (hK j) r k) Mx hMx

end Cert.KernelIdeal.Pay

end
-- ==== Proof.Finite.lean ====
/-
  Finiteness. The precondition says of each of the seven argument arrays that every entry's absolute value is below
  +∞; on the extended reals that makes every entry a real number. And on real data the first layers of the
  specification are real: a projection (a finite sum of products of reals plus a real), a score (such a sum divided
  by 32), and a row's maximum (the supremum of finitely many reals, over a nonempty range, is one of them).
-/
import proofs.«156329_j81458349736252_2_alg».proof.Pre_finite_inputs
import proofs.«156329_j81458349736252_2_alg».proof.Proof.Spec
import Idealize.ShloMosaic.Lib.ReduceAll
import Idealize.ShloMosaic.Lib.ValueIdx

noncomputable section

namespace Cert.Finite

open Idealize.ShloMosaic Idealize.ShloMosaic.ValueIdx
open Cert.Pre_finite_inputs
open scoped BigOperators

/-! ## From the precondition to real entries -/

/-- The scalar shape has one index. -/
instance : Subsingleton S_.Idx := ⟨fun a b => funext fun d => d.elim0⟩

/-- The pattern of `+∞` denotes the top of the extended reals. -/
theorem ofBits_inf : Ideal.ofBits .f32 0x7F800000#32 = ⊤ := by
  simp [Ideal.ofBits, Ideal.ieee]

/-- An extended real whose absolute value compares below `+∞` is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf] at h'
  induction x using EReal.rec with
  | bot => simp [Ideal.cmp] at h'
  | top => simp [Ideal.cmp] at h'
  | coe r => exact ⟨r, rfl⟩

/-- One array's conjunct of the precondition, "all entries have absolute value below `+∞`", makes every entry a real. -/
theorem all_real {s : Shape} {axes : List (Fin s.rank)} (a : FVec Ideal s .f32)
    (hb : S_.BroadcastsInDim s (![] : Fin 0 → Fin s.rank)) (hr : s.ReducesTo axes S_) (hS : 0 < S_.numel) (j : S_.Idx)
    (h : Host.reduce IntOp.andi
        (cmpf .olt (Host.absf a) (broadcastInDim s ![] hb (constant (F := Ideal) S_ .f32 0x7F800000#32)))
        (constantI S_ 1 1#1) hr hS j = 1#1) (i : s.Idx) : ∃ r : ℝ, a i = (r : EReal) :=
  real_of_abs_lt_inf (a i) (Host.reduce_andi_all _ _ hr hS j h i)

variable [Cert.Pre_finite_inputs.Facts]
open Cert.Pre_finite_inputs.Facts

/-- Under the precondition every entry of every argument array is a real number. -/
theorem finite_of_pre (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [Cert.Pre_finite_inputs.fn, Cert.Pre_finite_inputs.fn_part1] at h0
  simp only [Idealize.ShloMosaic.andi, IntOp.andi_eq_one] at h0
  obtain ⟨⟨⟨⟨⟨⟨e0, e1⟩, e2⟩, e3⟩, e4⟩, e5⟩, e6⟩ := h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

/-! ## The specification's first layers are real on real data -/

omit [Cert.Pre_finite_inputs.Facts] in
/-- A finite sum of reals is a real. -/
theorem sum_real {α : Type} (t : Finset α) (f : α → EReal) (hf : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨r, hr⟩ := ih fun i hi => hf i (Finset.mem_insert_of_mem hi)
    obtain ⟨u, hu⟩ := hf a (Finset.mem_insert_self a t)
    exact ⟨u + r, by rw [Finset.sum_insert ha, hr, hu, EReal.coe_add]⟩

omit [Cert.Pre_finite_inputs.Facts] in
/-- A projection of real arrays is real. -/
theorem proj_real (x : (⟨3, ![4, 2048, 1024]⟩ : Shape).Idx → EReal) (W : (⟨2, ![1024, 1024]⟩ : Shape).Idx → EReal)
    (b : (⟨1, ![1024]⟩ : Shape).Idx → EReal) (hx : ∀ i, ∃ r : ℝ, x i = (r : EReal)) (hW : ∀ i, ∃ r : ℝ, W i = (r : EReal))
    (hb : ∀ i, ∃ r : ℝ, b i = (r : EReal)) (bi : Fin 4) (s : Fin 2048) (h : Fin 1024) :
    ∃ r : ℝ, Spec.proj x W b bi s h = (r : EReal) := by
  unfold Spec.proj
  obtain ⟨r, hr⟩ := sum_real Finset.univ (fun d : Fin 1024 => x (ix3 bi s d) * W (ix2 d h)) fun d _ => by
    obtain ⟨u, hu⟩ := hx (ix3 bi s d)
    obtain ⟨v, hv⟩ := hW (ix2 d h)
    exact ⟨u * v, by rw [hu, hv, EReal.coe_mul]⟩
  obtain ⟨c, hc⟩ := hb (ix1 h)
  exact ⟨r + c, by rw [hr, hc, EReal.coe_add]⟩

omit [Cert.Pre_finite_inputs.Facts] in
/-- A score of real queries against real keys is real. -/
theorem score_real (Q K : Fin 4 → Fin 2048 → Fin 1024 → EReal) (hQ : ∀ bi s h, ∃ r : ℝ, Q bi s h = (r : EReal))
    (hK : ∀ bi s h, ∃ r : ℝ, K bi s h = (r : EReal)) (bi : Fin 4) (q k : Fin 2048) :
    ∃ r : ℝ, Spec.score Q K bi q k = (r : EReal) := by
  unfold Spec.score
  obtain ⟨r, hr⟩ := sum_real Finset.univ (fun h : Fin 1024 => Q bi q h * K bi k h) fun h _ => by
    obtain ⟨u, hu⟩ := hQ bi q h
    obtain ⟨v, hv⟩ := hK bi k h
    exact ⟨u * v, by rw [hu, hv, EReal.coe_mul]⟩
  exact ⟨r * (1 / 32), by rw [hr, Ideal.div_coe (by norm_num : (32 : ℝ) ≠ 0), EReal.coe_mul]⟩

omit [Cert.Pre_finite_inputs.Facts] in
/-- The maximum of a row of real scores is real: it is one of them. -/
theorem rowMax_real (S : Fin 4 → Fin 2048 → Fin 2048 → EReal) (hS : ∀ bi q k, ∃ r : ℝ, S bi q k = (r : EReal))
    (bi : Fin 4) (q : Fin 2048) : ∃ r : ℝ, Spec.rowMax S bi q = (r : EReal) := by
  unfold Spec.rowMax
  obtain ⟨k, _, hk⟩ := Finset.exists_mem_eq_sup (Finset.univ : Finset (Fin 2048)) ⟨0, Finset.mem_univ _⟩ (fun k => S bi q k)
  rw [hk]
  exact hS bi q k

omit [Cert.Pre_finite_inputs.Facts] in
/-- The row's maximum is attained at some key position and bounds every score of the row. -/
theorem rowMax_spec (S : Fin 4 → Fin 2048 → Fin 2048 → EReal) (bi : Fin 4) (q : Fin 2048) :
    (∃ k, Spec.rowMax S bi q = S bi q k) ∧ ∀ k, S bi q k ≤ Spec.rowMax S bi q := by
  unfold Spec.rowMax
  obtain ⟨k, _, hk⟩ := Finset.exists_mem_eq_sup (Finset.univ : Finset (Fin 2048)) ⟨0, Finset.mem_univ _⟩ (fun k => S bi q k)
  exact ⟨⟨k, hk⟩, fun k => Finset.le_sup (f := fun k => S bi q k) (Finset.mem_univ k)⟩

end Cert.Finite

end
-- ==== Proof.AttnValue.lean ====
/-
  The attention call at the ideal instance, from blocks to the array: what a point of key tile 3 writes back is the block
  of softmax attention over the three input arrays, and these blocks cover the output array.
-/
import proofs.«156329_j81458349736252_2_alg».proof.Proof.AttnSpec
import proofs.«156329_j81458349736252_2_alg».proof.Proof.AttnBlocks
import proofs.«156329_j81458349736252_2_alg».proof.Proof.KI.AttnState
import proofs.«156329_j81458349736252_2_alg».proof.Proof.LibOnlineSoftmax
import proofs.«156329_j81458349736252_2_alg».proof.Proof.FlashRow
import proofs.«156329_j81458349736252_2_alg».proof.Proof.Finite
import Idealize.ShloMosaic.PureOps.Ideal.Laws

set_option maxRecDepth 16384

noncomputable section

namespace Cert.KernelIdeal.HandValue

open Cert.KernelIdeal Cert.KernelIdeal.Gen Cert.KernelIdeal.Hand Cert.KernelIdeal.Pay
open Idealize.ShloMosaic Idealize.ShloMosaic.TcCoe Idealize.SL.Sem Idealize.ShloMosaic.ValueIdx
open Idealize.ShloMosaic.Pipeline (Dat)
open scoped BigOperators

open Cert.LibOnlineSoftmax

variable (V : (c : Dev nD) → (b : Ref sig .tc) → Buf (Elt Ideal) ((c : Thread nD τ).loc b))

/-- The key blocks and the value blocks of the four points of the query tile that starts at point `n`. -/
def KsOf (c : Dev nD) (n : ℕ) (hn : n + 3 < cfg1.N) : Fin 4 → Vec Ideal S1x512x1024 .bf16 :=
  fun j => iblk1 V c 1 ⟨n + j.val, by have := j.isLt; omega⟩
def VsOf (c : Dev nD) (n : ℕ) (hn : n + 3 < cfg1.N) : Fin 4 → Vec Ideal S1x512x1024 .bf16 :=
  fun j => iblk1 V c 2 ⟨n + j.val, by have := j.isLt; omega⟩

section
variable (c : Dev nD)
  (h7 : ∀ i, ∃ x : ℝ, (V c main_v7 : Vec Ideal S4x2048x1024 .bf16) i = (x : EReal))
  (h8 : ∀ i, ∃ x : ℝ, (V c main_v8 : Vec Ideal S4x2048x1024 .bf16) i = (x : EReal))
  (h9 : ∀ i, ∃ x : ℝ, (V c main_v9 : Vec Ideal S4x2048x1024 .bf16) i = (x : EReal))

include h7 in
theorem qblk_real (t : Fin cfg1.N) : ∀ i, ∃ x : ℝ, (iblk1 V c 0 t : Vec Ideal S1x1024x1024 .bf16) i = (x : EReal) := fun i => by
  unfold iblk1; rw [View.read_apply]; exact h7 _
include h8 in
theorem kblk_real (t : Fin cfg1.N) : ∀ i, ∃ x : ℝ, (iblk1 V c 1 t : Vec Ideal S1x512x1024 .bf16) i = (x : EReal) := fun i => by
  unfold iblk1; rw [View.read_apply]; exact h8 _
include h9 in
theorem vblk_real (t : Fin cfg1.N) : ∀ i, ∃ x : ℝ, (iblk1 V c 2 t : Vec Ideal S1x512x1024 .bf16) i = (x : EReal) := fun i => by
  unfold iblk1; rw [View.read_apply]; exact h9 _

/-- The four points of one query tile share their query block. -/
theorem qblk_same (n : ℕ) (hn : n + 3 < cfg1.N) (t' : Fin cfg1.N) (ht' : t'.val / 4 = (n + 3) / 4) :
    (iblk1 V c 0 t' : Vec Ideal S1x1024x1024 .bf16) = (iblk1 V c 0 ⟨n + 3, hn⟩ : Vec Ideal S1x1024x1024 .bf16) := by
  have hN : cfg1.N = 32 := N_1
  funext x
  obtain ⟨z, r, d, rfl⟩ : ∃ (z : Fin 1) (r : Fin 1024) (d : Fin 1024), x = ix3 z r d := ⟨x 0, x 1, x 2, eq_ix3 x⟩
  obtain rfl : z = 0 := Subsingleton.elim _ _
  have hb : (n + 3) / 8 < 4 := by omega
  have hq : 1024 * ((n + 3) / 4 % 2) + r.val < 2048 := by have := r.isLt; omega
  exact (qblk_at V c t' r d ⟨(n + 3) / 8, hb⟩ ⟨1024 * ((n + 3) / 4 % 2) + r.val, hq⟩
      (by show (n + 3) / 8 = t'.val / 8; omega) (by show 1024 * ((n + 3) / 4 % 2) + r.val = 1024 * (t'.val / 4 % 2) + r.val; omega)).trans
    (qblk_at V c ⟨n + 3, hn⟩ r d ⟨(n + 3) / 8, hb⟩ ⟨1024 * ((n + 3) / 4 % 2) + r.val, hq⟩ rfl rfl).symm

/-- The frame's four passes are the pure four passes over the query tile's blocks. -/
theorem st4_eq (n : ℕ) (hn : n + 3 < cfg1.N) (h4 : n % 4 = 0) :
    Hand.st4 V c n hn = Pay.st4 (iblk1 V c 0 ⟨n + 3, hn⟩) (KsOf V c n hn) (VsOf V c n hn) := by
  unfold Hand.st4 Pay.st4
  rw [qblk_same V c n hn ⟨n + 2, by omega⟩ (by show (n + 2) / 4 = (n + 3) / 4; omega),
    qblk_same V c n hn ⟨n + 1, by omega⟩ (by show (n + 1) / 4 = (n + 3) / 4; omega),
    qblk_same V c n hn ⟨n, by omega⟩ (by show n / 4 = (n + 3) / 4; omega)]
  rfl

include h7 h8 h9 in
/-- WHAT A POINT OF KEY TILE 3 LEAVES in the output block, entry by entry: softmax attention of the query row over all
    2048 key positions — the online recurrence over the four key tiles equals the one-shot softmax because every
    quantity is a real number. -/
theorem flush_row (n : ℕ) (hn : n + 3 < cfg1.N) (h4 : n % 4 = 0) (r h : Fin 1024) (b : Fin 4) (q : Fin 2048)
    (hb : b.val = (n + 3) / 8) (hq : q.val = 1024 * ((n + 3) / 4 % 2) + r.val) :
    ((outsAt1 V c (n + 3) hn).1 : Vec Ideal S1x1024x1024 .f32) (ix3 (0 : Fin 1) r h)
      = attnOf (fun b s h => (V c main_v7 : Vec Ideal S4x2048x1024 .bf16) (ix3 b s h))
          (fun b s h => (V c main_v8 : Vec Ideal S4x2048x1024 .bf16) (ix3 b s h))
          (fun b s h => (V c main_v9 : Vec Ideal S4x2048x1024 .bf16) (ix3 b s h)) b q h := by
  have hN : cfg1.N = 32 := N_1
  rw [out_four V c n hn h4, st4_eq V c n hn h4]
  have hS : ∀ bi q k, ∃ x : ℝ, Cert.Spec.score (fun b s h => (V c main_v7 : Vec Ideal S4x2048x1024 .bf16) (ix3 b s h))
      (fun b s h => (V c main_v8 : Vec Ideal S4x2048x1024 .bf16) (ix3 b s h)) bi q k = (x : EReal) :=
    Cert.Finite.score_real _ _ (fun _ _ _ => h7 _) (fun _ _ _ => h8 _)
  rw [Pay.flash_row (iblk1 V c 0 ⟨n + 3, hn⟩) (KsOf V c n hn) (VsOf V c n hn) (qblk_real V c h7 _)
    (fun j => kblk_real V c h8 _) (fun j => vblk_real V c h9 _) r h _ (Cert.Finite.rowMax_real _ hS b q)]
  -- the score of key tile j, key k is the specification's score at key position 512 j + k
  have hsc : ∀ (j : Fin 4) (k : Fin 512), Pay.sc (iblk1 V c 0 ⟨n + 3, hn⟩) (KsOf V c n hn j) r k
      = Cert.Spec.score (fun b s h => (V c main_v7 : Vec Ideal S4x2048x1024 .bf16) (ix3 b s h))
          (fun b s h => (V c main_v8 : Vec Ideal S4x2048x1024 .bf16) (ix3 b s h)) b q ⟨j.val * 512 + k.val, blockIdx_lt j k⟩ := by
    intro j k
    unfold Pay.sc Cert.Spec.score
    rw [Ideal.div_coe (by norm_num : (32 : ℝ) ≠ 0)]
    refine congrArg (fun s : EReal => s * ((1 / 32 : ℝ) : EReal)) (Finset.sum_congr rfl fun d _ => congrArg₂ (fun u v : EReal => u * v) ?_ ?_)
    · exact qblk_at V c ⟨n + 3, hn⟩ r d b q hb hq
    · exact kblk_at V c ⟨n + j.val, by have := j.isLt; omega⟩ k d b ⟨j.val * 512 + k.val, blockIdx_lt j k⟩
        (by show b.val = (n + j.val) / 8; have := j.isLt; omega)
        (by show j.val * 512 + k.val = 512 * ((n + j.val) % 4) + k.val; have := j.isLt; omega)
  unfold attnOf
  refine Eq.trans ?_ (sum_fin_mul (n := 512) (fun k : Fin 2048 => Cert.Spec.prob (Cert.Spec.score
    (fun b s h => (V c main_v7 : Vec Ideal S4x2048x1024 .bf16) (ix3 b s h))
    (fun b s h => (V c main_v8 : Vec Ideal S4x2048x1024 .bf16) (ix3 b s h))) b q k
      * (V c main_v9 : Vec Ideal S4x2048x1024 .bf16) (ix3 b k h))).symm
  have hden : (∑ j' : Fin 4, ∑ k' : Fin 512, Ideal.exp (Pay.sc (iblk1 V c 0 ⟨n + 3, hn⟩) (KsOf V c n hn j') r k'
        - Cert.Spec.rowMax (Cert.Spec.score (fun b s h => (V c main_v7 : Vec Ideal S4x2048x1024 .bf16) (ix3 b s h))
          (fun b s h => (V c main_v8 : Vec Ideal S4x2048x1024 .bf16) (ix3 b s h))) b q))
      = Cert.Spec.denom (Cert.Spec.score (fun b s h => (V c main_v7 : Vec Ideal S4x2048x1024 .bf16) (ix3 b s h))
          (fun b s h => (V c main_v8 : Vec Ideal S4x2048x1024 .bf16) (ix3 b s h))) b q := by
    unfold Cert.Spec.denom Cert.Spec.expo
    refine Eq.trans ?_ (sum_fin_mul (n := 512) (fun k : Fin 2048 => Ideal.exp (Cert.Spec.score
      (fun b s h => (V c main_v7 : Vec Ideal S4x2048x1024 .bf16) (ix3 b s h))
      (fun b s h => (V c main_v8 : Vec Ideal S4x2048x1024 .bf16) (ix3 b s h)) b q k
        - Cert.Spec.rowMax (Cert.Spec.score (fun b s h => (V c main_v7 : Vec Ideal S4x2048x1024 .bf16) (ix3 b s h))
          (fun b s h => (V c main_v8 : Vec Ideal S4x2048x1024 .bf16) (ix3 b s h))) b q))).symm
    exact Finset.sum_congr rfl fun j' _ => Finset.sum_congr rfl fun k' _ => by rw [hsc]
  rw [hden]
  refine Finset.sum_congr rfl fun j _ => Finset.sum_congr rfl fun k _ => ?_
  rw [hsc j k]
  unfold Cert.Spec.prob Cert.Spec.expo
  rw [show VsOf V c n hn j (ix3 (0 : Fin 1) k h) = (V c main_v9 : Vec Ideal S4x2048x1024 .bf16) (ix3 b ⟨j.val * 512 + k.val, blockIdx_lt j k⟩ h) from
    vblk_at V c ⟨n + j.val, by have := j.isLt; omega⟩ k h b ⟨j.val * 512 + k.val, blockIdx_lt j k⟩
      (by show b.val = (n + j.val) / 8; have := j.isLt; omega)
      (by show j.val * 512 + k.val = 512 * ((n + j.val) % 4) + k.val; have := j.isLt; omega)]

include h7 h8 h9 in
/-- WHAT A WRITING POINT WRITES BACK is its block of softmax attention over the arrays the call finds. -/
theorem flushed_eq1 (t : Fin cfg1.N) (hf : (cfg1.win 3).flush t = true) :
    (dat1 (F := Ideal) V c).flushed 3 t
      = ((cfg1.win 3).blk t).view.read (Elt Ideal) (attnG (V c main_v7) (V c main_v8) (V c main_v9)) := by
  have hN : cfg1.N = 32 := N_1
  have h3 : t.val % 4 = 3 := (flush1_3 t).mp hf
  obtain ⟨n, hn, rfl⟩ : ∃ (n : ℕ) (hn : n + 3 < cfg1.N), t = ⟨n + 3, hn⟩ :=
    ⟨t.val - 3, by have := t.isLt; omega, Fin.ext (by show t.val = t.val - 3 + 3; omega)⟩
  have h4 : n % 4 = 0 := by have : (n + 3) % 4 = 3 := h3; omega
  show (cfg1.win 3).cut (grid1.coords ⟨n + 3, hn⟩) ((dat1 V c).after 3 ⟨n + 3, hn⟩) = _
  rw [after1_3]
  funext x
  obtain ⟨z, r, h, rfl⟩ : ∃ (z : Fin 1) (r : Fin 1024) (h : Fin 1024), x = ix3 z r h := ⟨x 0, x 1, x 2, eq_ix3 x⟩
  obtain rfl : z = 0 := Subsingleton.elim _ _
  have hb : (n + 3) / 8 < 4 := by omega
  have hq : 1024 * ((n + 3) / 4 % 2) + r.val < 2048 := by have := r.isLt; omega
  show ((outsAt1 V c (n + 3) hn).1 : Vec Ideal S1x1024x1024 .f32) (ix3 (0 : Fin 1) r h)
    = attnG (V c main_v7) (V c main_v8) (V c main_v9) (((cfg1.win 3).blk ⟨n + 3, hn⟩).view.emb (ix3 (0 : Fin 1) r h))
  rw [oemb_at ⟨n + 3, hn⟩ r h ⟨(n + 3) / 8, hb⟩ ⟨1024 * ((n + 3) / 4 % 2) + r.val, hq⟩ rfl rfl, attnG_apply]
  exact flush_row V c h7 h8 h9 n hn h4 r h _ _ rfl rfl

include h7 h8 h9 in
/-- THE OUTPUT ARRAY after the call's write-backs is softmax attention over the arrays the call finds. -/
theorem attn_final :
    (dat1 (F := Ideal) V c).arrAt 3 cfg1.N = attnG (V c main_v7) (V c main_v8) (V c main_v9) :=
  (dat1 (F := Ideal) V c).arrAt_eq_of_cover 3 (attnG (V c main_v7) (V c main_v8) (V c main_v9))
    (fun t hf => flushed_eq1 V c h7 h8 h9 t hf) covered1

end

end Cert.KernelIdeal.HandValue

end
-- ==== Proof.KI.AttnFinal.lean ====
/- The kernel program's result array at the end of the run, at the ideal instance, is the specification: the attention
   call's result is softmax attention of its three operand arrays (on real data), and those are the three projections
   of the launch arguments. -/
import proofs.«156329_j81458349736252_2_alg».proof.Proof.KI.Run
import proofs.«156329_j81458349736252_2_alg».proof.Proof.QKV
import proofs.«156329_j81458349736252_2_alg».proof.Proof.AttnValue
import proofs.«156329_j81458349736252_2_alg».proof.Proof.Finite
import proofs.«156329_j81458349736252_2_alg».proof.Proof.Spec

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.ValueIdx

/-- The specification's result is softmax attention of the three projections. -/
theorem attnOf_proj (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (bi : Fin 4) (q : Fin 2048) (h : Fin 1024) :
    attnOf (Cert.Spec.proj x Wq bq) (Cert.Spec.proj x Wk bk) (Cert.Spec.proj x Wv bv) bi q h
      = Cert.Spec.attn x Wq bq Wk bk Wv bv bi q h := rfl

theorem out_value (m : (ℓ : Loc nD τ sig) → Buf (Elt Ideal) ℓ) (c : Dev nD)
    (h0 : ∀ i, ∃ r : ℝ, m ((c.tc : Thread nD τ).loc main_arg0) i = (r : EReal))
    (h1 : ∀ i, ∃ r : ℝ, m ((c.tc : Thread nD τ).loc main_arg1) i = (r : EReal))
    (h2 : ∀ i, ∃ r : ℝ, m ((c.tc : Thread nD τ).loc main_arg2) i = (r : EReal))
    (h3 : ∀ i, ∃ r : ℝ, m ((c.tc : Thread nD τ).loc main_arg3) i = (r : EReal))
    (h4 : ∀ i, ∃ r : ℝ, m ((c.tc : Thread nD τ).loc main_arg4) i = (r : EReal))
    (h5 : ∀ i, ∃ r : ℝ, m ((c.tc : Thread nD τ).loc main_arg5) i = (r : EReal))
    (h6 : ∀ i, ∃ r : ℝ, m ((c.tc : Thread nD τ).loc main_arg6) i = (r : EReal)) :
    Cert.KernelIdeal.Hand.hW4 (F := Ideal) m c (Proc.devRef .tc main_v10)
      = fun i => Cert.Spec.attn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (i 0) (i 1) (i 2) := by
  -- the three operand arrays of the attention call are the projections, entry by entry, hence real
  have eQ : (fun (b : Fin 4) (s : Fin 2048) (h : Fin 1024) => (Hand.hV3 m c main_v7 : Vec Ideal S4x2048x1024 .bf16) (ix3 b s h))
      = Cert.Spec.proj (m ((c.tc : Thread nD τ).loc main_arg0)) (m ((c.tc : Thread nD τ).loc main_arg1)) (m ((c.tc : Thread nD τ).loc main_arg2)) :=
    funext fun b => funext fun s => funext fun h => q_entry' m c b s h
  have eK : (fun (b : Fin 4) (s : Fin 2048) (h : Fin 1024) => (Hand.hV3 m c main_v8 : Vec Ideal S4x2048x1024 .bf16) (ix3 b s h))
      = Cert.Spec.proj (m ((c.tc : Thread nD τ).loc main_arg0)) (m ((c.tc : Thread nD τ).loc main_arg3)) (m ((c.tc : Thread nD τ).loc main_arg4)) :=
    funext fun b => funext fun s => funext fun h => k_entry' m c b s h
  have eV : (fun (b : Fin 4) (s : Fin 2048) (h : Fin 1024) => (Hand.hV3 m c main_v9 : Vec Ideal S4x2048x1024 .bf16) (ix3 b s h))
      = Cert.Spec.proj (m ((c.tc : Thread nD τ).loc main_arg0)) (m ((c.tc : Thread nD τ).loc main_arg5)) (m ((c.tc : Thread nD τ).loc main_arg6)) :=
    funext fun b => funext fun s => funext fun h => v_entry' m c b s h
  have hq : ∀ i, ∃ x : ℝ, (Hand.hV3 m c main_v7 : Vec Ideal S4x2048x1024 .bf16) i = (x : EReal) := fun i => by
    obtain ⟨b, s, h, rfl⟩ : ∃ (b : Fin 4) (s : Fin 2048) (h : Fin 1024), i = ix3 b s h := ⟨i 0, i 1, i 2, eq_ix3 i⟩
    obtain ⟨r, hr⟩ := Cert.Finite.proj_real _ _ _ h0 h1 h2 b s h
    exact ⟨r, (q_entry' m c b s h).trans hr⟩
  have hk : ∀ i, ∃ x : ℝ, (Hand.hV3 m c main_v8 : Vec Ideal S4x2048x1024 .bf16) i = (x : EReal) := fun i => by
    obtain ⟨b, s, h, rfl⟩ : ∃ (b : Fin 4) (s : Fin 2048) (h : Fin 1024), i = ix3 b s h := ⟨i 0, i 1, i 2, eq_ix3 i⟩
    obtain ⟨r, hr⟩ := Cert.Finite.proj_real _ _ _ h0 h3 h4 b s h
    exact ⟨r, (k_entry' m c b s h).trans hr⟩
  have hv : ∀ i, ∃ x : ℝ, (Hand.hV3 m c main_v9 : Vec Ideal S4x2048x1024 .bf16) i = (x : EReal) := fun i => by
    obtain ⟨b, s, h, rfl⟩ : ∃ (b : Fin 4) (s : Fin 2048) (h : Fin 1024), i = ix3 b s h := ⟨i 0, i 1, i 2, eq_ix3 i⟩
    obtain ⟨r, hr⟩ := Cert.Finite.proj_real _ _ _ h0 h5 h6 b s h
    exact ⟨r, (v_entry' m c b s h).trans hr⟩
  -- the result array is the attention call's output window's array after its write-backs
  have e3 : Hand.hW4 (F := Ideal) m c (Proc.devRef .tc main_v10) = (Hand.dat1 (F := Ideal) (Hand.hV3 m) c).arrAt 3 cfg1.N :=
    Hand.hW4_arr m c 3
  rw [e3, attn_final (Hand.hV3 m) c hq hk hv]
  funext i
  obtain ⟨b, q, h, rfl⟩ : ∃ (b : Fin 4) (q : Fin 2048) (h : Fin 1024), i = ix3 b q h := ⟨i 0, i 1, i 2, eq_ix3 i⟩
  rw [attnG_apply, eQ, eK, eV]
  exact attnOf_proj _ _ _ _ _ _ _ b q h

end Cert.KernelIdeal.HandValue

end
-- ==== Proof.Bridge.lean ====
/-
  The kernel program's run, restated with the specification. Under the precondition every entry of the argument arrays
  is a real number; on such data what the attention call leaves in the result buffer is the attention layer of the
  argument arrays, index by index, and no argument array is written.
-/
import proofs.«156329_j81458349736252_2_alg».proof.Defs
import proofs.«156329_j81458349736252_2_alg».proof.Proof.KI.Run
import proofs.«156329_j81458349736252_2_alg».proof.Proof.KI.AttnFinal
import proofs.«156329_j81458349736252_2_alg».proof.Proof.Finite

noncomputable section

namespace Cert.Bridge

open Cert.KernelIdeal Cert.KernelIdeal.Gen Cert.KernelIdeal.Hand
open Idealize.ShloMosaic Idealize.ShloMosaic.TcCoe Idealize.SL.Sem

variable [hPre_finite_inputs : Cert.Pre_finite_inputs.Facts]

/-- From a memory satisfying the precondition the kernel program runs to the end with its result the specification of
    the argument arrays it was launched with, and those arrays unchanged. -/
theorem kernel_run_spec (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v10)
          = (fun i => Spec.attn (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨f0, f1, f2, f3, f4, f5, f6⟩ := Cert.Finite.finite_of_pre _ _ _ _ _ _ _ (hpre c)
    exact ⟨
      (h c _ (mem_uc main_v10 (by decide))).trans (Cert.KernelIdeal.HandValue.out_value m c f0 f1 f2 f3 f4 f5 f6),
      (h c _ (mem_uc main_arg0 (by decide))).trans (hW4_kept m c main_arg0 (by decide) (by decide) (by decide) (by decide)),
      (h c _ (mem_uc main_arg1 (by decide))).trans (hW4_kept m c main_arg1 (by decide) (by decide) (by decide) (by decide)),
      (h c _ (mem_uc main_arg2 (by decide))).trans (hW4_kept m c main_arg2 (by decide) (by decide) (by decide) (by decide)),
      (h c _ (mem_uc main_arg3 (by decide))).trans (hW4_kept m c main_arg3 (by decide) (by decide) (by decide) (by decide)),
      (h c _ (mem_uc main_arg4 (by decide))).trans (hW4_kept m c main_arg4 (by decide) (by decide) (by decide) (by decide)),
      (h c _ (mem_uc main_arg5 (by decide))).trans (hW4_kept m c main_arg5 (by decide) (by decide) (by decide) (by decide)),
      (h c _ (mem_uc main_arg6 (by decide))).trans (hW4_kept m c main_arg6 (by decide) (by decide) (by decide) (by decide))⟩)
    (run_all m ρ)

end Cert.Bridge

end
-- ==== Proof.lean ====
/-
  The proof of `Cert.Claim`.

  The program is two calls. The projection call computes, tile by tile, the input against the three weight matrices set
  side by side, plus the three biases set side by side: x · [Wq | Wk | Wv] + [bq | bk | bv]. The attention call is an
  online softmax: for each block of query rows it visits the keys in four tiles, keeping a running row maximum, a running
  normaliser and a running weighted sum of value rows, rescaling the last two whenever the maximum grows, and divides at
  the end. The reference computes the three projections, the scores divided by the square root of 1024, the softmax
  along the key axis with the row maximum subtracted, and the weighted sum of the values.

  Both are proved equal, index by index on the extended reals, to one specification (Proof/Spec.lean). The precondition
  makes every entry of the argument arrays a real number, so every projection, score and row maximum is real, every
  exponential is a positive real and every normaliser a positive real; on such data the rescaled running sums of the
  online softmax are the one-shot sums, and the kernel's product with 1/32 is the reference's quotient by the square
  root of 1024. The frame claims read off the same runs: no argument array is written.
-/
import proofs.«156329_j81458349736252_2_alg».proof.Defs
import proofs.«156329_j81458349736252_2_alg».proof.Proof.Gen.Kernel
import proofs.«156329_j81458349736252_2_alg».proof.Proof.Gen.KernelIdeal
import proofs.«156329_j81458349736252_2_alg».proof.Proof.Gen.ReferenceIdeal
import proofs.«156329_j81458349736252_2_alg».proof.Proof.Gen.Pre_finite_inputs
import proofs.«156329_j81458349736252_2_alg».proof.Proof.K.Run
import proofs.«156329_j81458349736252_2_alg».proof.Proof.KI.Run
import proofs.«156329_j81458349736252_2_alg».proof.Proof.RefFrame
import proofs.«156329_j81458349736252_2_alg».proof.Proof.Bridge

noncomputable section

namespace Cert.Proof

open Idealize.ShloMosaic Idealize.SL.Sem

/-- The kernel program as printed runs to the end and writes no argument array. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- From memories that agree on the arguments, the idealized kernel and the idealized reference both end with the
    specification of those arguments in their result buffers. -/
theorem algebraic : Cert.algebraic_KernelIdeal_ReferenceIdeal := by
  intro m ρ m' ρ' hpre hagree
  refine ⟨fun c => fun i => Cert.Spec.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (i 0) (i 1) (i 2),
    Cert.Bridge.kernel_run_spec m ρ hpre, ?_⟩
  refine (θ_run Cert.ReferenceIdeal.defs _ _).mono (fun _ h c => ⟨(h c).1.trans ?_, (h c).2⟩)
    (Cert.ReferenceIdeal.RefValue.run_spec m' ρ')
  obtain ⟨e0, e1, e2, e3, e4, e5, e6⟩ := hagree c
  rw [e0, e1, e2, e3, e4, e5, e6]
  rfl

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
